-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S128x6 .f32) (main_arg9 : FVec F S6 .f32) (main_v33 : IVec S_ 1) : IVec S_ 1 :=
  let main_v34 : FVec F S128x6 .f32 := Host.absf main_arg8
  let main_cst_12 : FVec F S_ .f32 := constant S_ .f32 0x7F800000#32
  let main_v35 : FVec F S128x6 .f32 := broadcastInDim S128x6 ![] bcast_S_S128x6 main_cst_12
  let main_v36 : IVec S128x6 1 := cmpf .olt main_v34 main_v35
  let main_c_13 : IVec S_ 1 := constantI S_ 1 1#1
  let main_v37 : IVec S_ 1 := (fun x v => Host.reduce IntOp.andi x v reducesTo_S128x6_S_d0_1 h_S_) main_v36 main_c_13
  let main_v38 : IVec S_ 1 := andi main_v33 main_v37
  let main_v39 : FVec F S6 .f32 := Host.absf main_arg9
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x6 .f32) (main_arg9 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x6 .f32) (main_arg1 : IVec S2x1600000 32) (main_arg2 : FVec F S6x128 .f32) (main_arg3 : FVec F S128 .f32) (main_arg4 : FVec F S128x128 .f32) (main_arg5 : FVec F S128 .f32) (main_arg6 : FVec F S128x128 .f32) (main_arg7 : FVec F S128 .f32) (main_arg8 : FVec F S128x6 .f32) (main_arg9 : FVec F S6 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x128 .f32 := Host.absf main_arg2
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x6 : Shape := ⟨2, ![100000, 6]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x6 : Shape := ⟨2, ![5000, 6]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1x6 : Shape := ⟨2, ![1, 6]⟩

abbrev nBuf : Space → Nat
  | .hbm => 65
  | .vmem => 26
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x6, .f32⟩
  | .hbm, ⟨9, _⟩ => ⟨S6, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S1x128, .f32⟩
  | .hbm, ⟨63, _⟩ => ⟨S1x6, .f32⟩
  | .hbm, ⟨64, _⟩ => ⟨S100000x6, .f32⟩
  | .local _ .vmem, ⟨0, _⟩ => ⟨S5000x6, .f32⟩
  | .local _ .vmem, ⟨1, _⟩ => ⟨S5000x6, .f32⟩
  | .local _ .vmem, ⟨2, _⟩ => ⟨S6x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x6, .f32⟩
  | .local _ .vmem, ⟨23, _⟩ => ⟨S1x6, .f32⟩
  | .local _ .vmem, ⟨24, _⟩ => ⟨S5000x6, .f32⟩
  | .local _ .vmem, ⟨25, _⟩ => ⟨S5000x6, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x6 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S6_S1x6 : S6.ShapeCasts S1x6
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  scatter_S100000_S1700000x1_S1700000_n_0_0_1_wf : ScatterDims.WF S100000 S1700000x1 S1700000 [] [0] [0] 1
  dot_S5000x6_S6x128_S5000x128_1_0_0_1_n_n_wf : DotDims.WF S5000x6 S6x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x6_S5000x6_1_0_0_1_n_n_wf : DotDims.WF S5000x128 S128x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x6.size a ≤ S128x6.size a
  hwx2_5 : ∀ i : grid2.Coords, EltTy.bits .f32 = 32 ∨ (Rect.block (s := S128x6) S128x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x6.size a ≤ S1x6.size a
  hwx2_6 : ∀ i : grid2.Coords, EltTy.bits .f32 = 32 ∨ (Rect.block (s := S1x6) S1x6.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x6.size a ≤ S100000x6.size a
  hwx2_7 : ∀ i : grid2.Coords, EltTy.bits .f32 = 32 ∨ (Rect.block (s := S100000x6) S5000x6.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x6_S5000x6_1_0_0_1_n_n : DotDims S5000x128 S128x6 S5000x6 where
  lhsContracting := [1]
  rhsContracting := [0]
  lhsNonContracting := [0]
  rhsNonContracting := [1]
  lhsBatch := []
  rhsBatch := []
  wf := dot_S5000x128_S128x6_S5000x6_1_0_0_1_n_n_wf

abbrev win0_0 : Pipeline.Window sig grid0 :=
  Pipeline.Window.ofSpec (Memref.whole main_arg0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x6.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S5000x6.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x128 : Shape := ⟨2, ![6, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x6 : Shape := ⟨2, ![1, 6]⟩

abbrev nBuf : Space → Nat
  | .hbm => 137
  | .vmem => 0
  | .smem => 0
  | _ => 0

abbrev hbmTy0_0 (i : Nat) : BufTy := match i % 128 with
  | 0 => ⟨S100000x6, .f32⟩
  | 1 => ⟨S2x1600000, .i32⟩
  | 2 => ⟨S6x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x6, .f32⟩
  | 9 => ⟨S6, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x128, .f32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S1x128, .f32⟩
  | _ => ⟨S100000x6, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x6, .f32⟩
  | 6 => ⟨S1x6, .f32⟩
  | 7 => ⟨S100000x6, .f32⟩
  | 8 => ⟨S100000x6, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  dot_S100000x6_S6x128_S100000x128_1_0_0_1_n_n_wf : DotDims.WF S100000x6 S6x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x6_S100000x6_1_0_0_1_n_n_wf : DotDims.WF S100000x128 S128x6 S100000x6 [1] [0] [0] [1] [] []

variable [Facts₀]

def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x6_S100000x6_1_0_0_1_n_n : DotDims S100000x128 S128x6 S100000x6 where
  lhsContracting := [1]
  rhsContracting := [0]
  lhsNonContracting := [0]
  rhsNonContracting := [1]
  lhsBatch := []
  rhsBatch := []
  wf := dot_S100000x128_S128x6_S100000x6_1_0_0_1_n_n_wf

class Facts : Prop extends Facts₀ where

variable [Facts]
-- ==== Proof.Spec.lean ====
/-
  A two-layer graph convolution with symmetric degree normalisation, followed by a two-layer decoder, written in two ways.

  The graph is given by three columns of edge words and a vector `dinv` (one scale per node). Edge `e` LANDS on node `n`
  when its destination word, read as a signed integer, is `n` (`land`); a gather reads, for edge `e`, the row named by a
  start word read signed and clamped into the node range (`row`).

  * THE SCALED FORM. A node table is multiplied by `dinv` row by row BEFORE it is gathered; the rows landing on `n` are
    summed; the sum is multiplied by `dinv n` AFTERWARDS:
        dinv n · Σ_{e lands on n} (P (src e) · dinv (src e)).
  * THE EDGE-WEIGHT FORM. Every gathered row is multiplied by the edge weight `dinv (src e) · dinv (dst e)` and the rows
    landing on `n` are summed:
        Σ_{e lands on n} P (src e) · (dinv (src e) · dinv (dst e)).

  For an edge landing on `n` the destination row IS `n`, so the two forms differ by moving the factor `dinv n` across the
  sum: distributivity of the product over a finite sum. On the extended reals that law needs every term to be a real
  number (`∞ − ∞` breaks it), so the equality is proved for real-valued tables and scales (`layer`). Realness is carried
  through the first layer (products, finite sums, a maximum with zero) to the second; the decoder is the same function
  of the second layer's result on both sides and needs nothing.
-/
import Idealize.ShloMosaic.PureOps.Ideal
import Idealize.ShloMosaic.Lib.ValueIdx

noncomputable section

open scoped BigOperators

namespace Cert.Spec

open Idealize.ShloMosaic Idealize.ShloMosaic.ValueIdx

/-! ## Real-valued extended reals -/

/-- An extended real that is a real number. -/
def IsR (x : EReal) : Prop := ∃ r : ℝ, x = (r : EReal)

theorem IsR.zero : IsR 0 := ⟨0, rfl⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.max_zero {x : EReal} (hx : IsR x) : IsR (max x 0) := by
  rcases le_total x 0 with h | h
  · rw [max_eq_right h]; exact IsR.zero
  · rw [max_eq_left h]; exact hx

theorem IsR.sum {ι : Type} (S : Finset ι) (f : ι → EReal) (hf : ∀ i ∈ S, IsR (f i)) : IsR (∑ i ∈ S, f i) := by
  classical
  induction S using Finset.induction_on with
  | empty => rw [Finset.sum_empty]; exact IsR.zero
  | insert a S ha ih =>
    rw [Finset.sum_insert ha]
    exact (hf a (Finset.mem_insert_self a S)).add (ih fun i hi => hf i (Finset.mem_insert_of_mem hi))

/-- A finite sum of reals, taken in the extended reals, is the real sum. -/
theorem coe_sum {ι : Type} (S : Finset ι) (f : ι → ℝ) : ∑ i ∈ S, ((f i : ℝ) : EReal) = ((∑ i ∈ S, f i : ℝ) : EReal) := by
  classical
  induction S using Finset.induction_on with
  | empty => rw [Finset.sum_empty, Finset.sum_empty]; rfl
  | insert a S ha ih => rw [Finset.sum_insert ha, Finset.sum_insert ha, ih, EReal.coe_add]

/-! ## The graph -/

/-- The edges landing on node `n`: those whose destination word, read signed, is `n`. -/
def land (dstcol : (⟨2, ![1700000, 1]⟩ : Shape).Idx → BitVec 32) (n : Fin 100000) : Finset (Fin 1700000) :=
  Finset.univ.filter (fun e : Fin 1700000 => (dstcol (ix2 e (0 : Fin 1))).toInt = (n.val : ℤ))

/-- The row a gather reads for edge `e`: its start word read signed and clamped into the node range. -/
def row (col : (⟨2, ![1700000, 1]⟩ : Shape).Idx → BitVec 32) (e : Fin 1700000) : Fin 100000 :=
  ⟨min (col (ix2 e (0 : Fin 1))).toInt.toNat (100000 - 1), by omega⟩

/-- A matrix product, the left factor given row by row: `Σ_k H r k · W (k, c)`. -/
def mmf {A K C : Nat} (H : Fin A → Fin K → EReal) (W : (⟨2, ![K, C]⟩ : Shape).Idx → EReal) (r : Fin A) (c : Fin C) : EReal :=
  ∑ k : Fin K, H r k * W (ix2 k c)

/-- An array of two axes read as a function of its two coordinates. -/
def rows {A B : Nat} (X : (⟨2, ![A, B]⟩ : Shape).Idx → EReal) : Fin A → Fin B → EReal := fun r k => X (ix2 r k)

/-- A function of two coordinates as an array of two axes. -/
def asArr {A B : Nat} (f : Fin A → Fin B → EReal) : (⟨2, ![A, B]⟩ : Shape).Idx → EReal := fun i => f (i 0) (i 1)

theorem asArr_ix2 {A B : Nat} (f : Fin A → Fin B → EReal) (r : Fin A) (c : Fin B) : asArr f (ix2 r c) = f r c := rfl

theorem mmf_isR {A K C : Nat} (H : Fin A → Fin K → EReal) (W : (⟨2, ![K, C]⟩ : Shape).Idx → EReal)
    (hH : ∀ r k, IsR (H r k)) (hW : ∀ i, IsR (W i)) (r : Fin A) (c : Fin C) : IsR (mmf H W r c) :=
  IsR.sum _ _ fun k _ => (hH r k).mul (hW _)

/-! ## The three dense stages, as functions of the arrays a stage finds

  A stage takes the scale as a column `D : [N, 1]` and a bias as a row `[1, k]`. -/

/-- Stage 0: `(A · W)` with row `r` times `D r`. -/
def stage0 (A : (⟨2, ![100000, 6]⟩ : Shape).Idx → EReal) (W : (⟨2, ![6, 128]⟩ : Shape).Idx → EReal)
    (D : (⟨2, ![100000, 1]⟩ : Shape).Idx → EReal) : Fin 100000 → Fin 128 → EReal :=
  fun r q => mmf (rows A) W r q * D (ix2 r (0 : Fin 1))

/-- Stage 1: `max (D · Hp + B) 0 · W`, with row `r` times `D r`. -/
def stage1 (Hp : (⟨2, ![100000, 128]⟩ : Shape).Idx → EReal) (D : (⟨2, ![100000, 1]⟩ : Shape).Idx → EReal)
    (B : (⟨2, ![1, 128]⟩ : Shape).Idx → EReal) (W : (⟨2, ![128, 128]⟩ : Shape).Idx → EReal) : Fin 100000 → Fin 128 → EReal :=
  fun r q => mmf (fun r k => max (D (ix2 r (0 : Fin 1)) * Hp (ix2 r k) + B (ix2 (0 : Fin 1) k)) 0) W r q * D (ix2 r (0 : Fin 1))

/-- Stage 2: with `Z = D · Zp + B2`, the decoder `max (Z · F1 + C1) 0 · F2 + C2`. -/
def stage2 (Zp : (⟨2, ![100000, 128]⟩ : Shape).Idx → EReal) (D : (⟨2, ![100000, 1]⟩ : Shape).Idx → EReal)
    (B2 : (⟨2, ![1, 128]⟩ : Shape).Idx → EReal) (F1 : (⟨2, ![128, 128]⟩ : Shape).Idx → EReal)
    (C1 : (⟨2, ![1, 128]⟩ : Shape).Idx → EReal) (F2 : (⟨2, ![128, 6]⟩ : Shape).Idx → EReal)
    (C2 : (⟨2, ![1, 6]⟩ : Shape).Idx → EReal) : Fin 100000 → Fin 6 → EReal :=
  fun r q => mmf (fun r k => max (mmf (fun r k => D (ix2 r (0 : Fin 1)) * Zp (ix2 r k) + B2 (ix2 (0 : Fin 1) k)) F1 r k
    + C1 (ix2 (0 : Fin 1) k)) 0) F2 r q + C2 (ix2 (0 : Fin 1) q)

section Graph

variable (dstcol srcw dstw : (⟨2, ![1700000, 1]⟩ : Shape).Idx → BitVec 32) (dinv : (⟨1, ![100000]⟩ : Shape).Idx → EReal)

/-- The rows of a node table landing on `n`, summed onto zero. -/
def aggK (T : Fin 100000 → Fin 128 → EReal) (n : Fin 100000) (c : Fin 128) : EReal :=
  0 + ∑ e ∈ land dstcol n, T (row srcw e) c

/-- The rows of a node table landing on `n`, each times its edge weight, summed onto zero. -/
def aggR (P : Fin 100000 → Fin 128 → EReal) (n : Fin 100000) (c : Fin 128) : EReal :=
  0 + ∑ e ∈ land dstcol n, P (row srcw e) c * (dinv (ix1 (row srcw e)) * dinv (ix1 (row dstw e)))

theorem aggR_isR (P : Fin 100000 → Fin 128 → EReal) (hP : ∀ r c, IsR (P r c)) (hd : ∀ n, IsR (dinv (ix1 n)))
    (n : Fin 100000) (c : Fin 128) : IsR (aggR dstcol srcw dstw dinv P n c) :=
  IsR.zero.add (IsR.sum _ _ fun e _ => (hP _ _).mul ((hd _).mul (hd _)))

/-- THE LAYER LAW: scaling the table's rows before the gather and the sum afterwards is weighting every edge, when the
    table and the scales are real numbers and every edge landing on `n` has destination row `n`. -/
theorem layer (P : Fin 100000 → Fin 128 → EReal) (hP : ∀ r c, IsR (P r c)) (hd : ∀ n, IsR (dinv (ix1 n)))
    (hs : ∀ n, ∀ e ∈ land dstcol n, row dstw e = n) (n : Fin 100000) (c : Fin 128) :
    dinv (ix1 n) * aggK dstcol srcw (fun r c => P r c * dinv (ix1 r)) n c = aggR dstcol srcw dstw dinv P n c := by
  choose p hp using hP
  choose δ hδ using hd
  unfold aggK aggR
  rw [zero_add, zero_add]
  rw [Finset.sum_congr rfl (fun e he => by rw [hs n e he] :
    ∀ e ∈ land dstcol n, P (row srcw e) c * (dinv (ix1 (row srcw e)) * dinv (ix1 (row dstw e)))
      = P (row srcw e) c * (dinv (ix1 (row srcw e)) * dinv (ix1 n)))]
  simp only [hp, hδ, ← EReal.coe_mul, coe_sum]
  rw [EReal.coe_eq_coe_iff, Finset.mul_sum]
  exact Finset.sum_congr rfl fun e _ => by ring

/-! ## The two programs -/

variable (X : (⟨2, ![100000, 6]⟩ : Shape).Idx → EReal) (W1 : (⟨2, ![6, 128]⟩ : Shape).Idx → EReal)
  (b1 : (⟨1, ![128]⟩ : Shape).Idx → EReal) (W2 : (⟨2, ![128, 128]⟩ : Shape).Idx → EReal)
  (b2 : (⟨1, ![128]⟩ : Shape).Idx → EReal) (F1 : (⟨2, ![128, 128]⟩ : Shape).Idx → EReal)
  (c1 : (⟨1, ![128]⟩ : Shape).Idx → EReal) (F2 : (⟨2, ![128, 6]⟩ : Shape).Idx → EReal)
  (c2 : (⟨1, ![6]⟩ : Shape).Idx → EReal)

/-- The decoder: `max (Z · F1 + c1) 0 · F2 + c2`. -/
def dec (Z : Fin 100000 → Fin 128 → EReal) : Fin 100000 → Fin 6 → EReal :=
  fun r c => mmf (fun r k => max (mmf Z F1 r k + c1 (ix1 k)) 0) F2 r c + c2 (ix1 c)

/-- Scaled form, first table: `(X · W1)` with row `r` times `dinv r`. -/
def kT1 : Fin 100000 → Fin 128 → EReal := fun r c => mmf (rows X) W1 r c * dinv (ix1 r)

/-- Scaled form, hidden layer. -/
def kH : Fin 100000 → Fin 128 → EReal :=
  fun n c => max (dinv (ix1 n) * aggK dstcol srcw (kT1 dinv X W1) n c + b1 (ix1 c)) 0

/-- Scaled form, second table. -/
def kT2 : Fin 100000 → Fin 128 → EReal := fun r c => mmf (kH dstcol srcw dinv X W1 b1) W2 r c * dinv (ix1 r)

/-- Scaled form, second layer. -/
def kZ : Fin 100000 → Fin 128 → EReal :=
  fun n c => dinv (ix1 n) * aggK dstcol srcw (kT2 dstcol srcw dinv X W1 b1 W2) n c + b2 (ix1 c)

/-- Scaled form, result. -/
def kerOut : Fin 100000 → Fin 6 → EReal := dec F1 c1 F2 c2 (kZ dstcol srcw dinv X W1 b1 W2 b2)

/-- Edge-weight form, hidden layer. -/
def rH : Fin 100000 → Fin 128 → EReal :=
  fun n c => max (aggR dstcol srcw dstw dinv (mmf (rows X) W1) n c + b1 (ix1 c)) 0

/-- Edge-weight form, second layer. -/
def rZ : Fin 100000 → Fin 128 → EReal :=
  fun n c => aggR dstcol srcw dstw dinv (mmf (rH dstcol srcw dstw dinv X W1 b1) W2) n c + b2 (ix1 c)

/-- Edge-weight form, result. -/
def refOut : Fin 100000 → Fin 6 → EReal := dec F1 c1 F2 c2 (rZ dstcol srcw dstw dinv X W1 b1 W2 b2)

/-- THE TWO FORMS AGREE when the node features, both layers' weights, the first bias and the scales are real numbers and
    every edge landing on a node has that node as its destination row. -/
theorem kerOut_eq_refOut (hX : ∀ i, IsR (X i)) (hW1 : ∀ i, IsR (W1 i)) (hb1 : ∀ i, IsR (b1 i)) (hW2 : ∀ i, IsR (W2 i))
    (hd : ∀ n, IsR (dinv (ix1 n))) (hs : ∀ n, ∀ e ∈ land dstcol n, row dstw e = n) :
    kerOut dstcol srcw dinv X W1 b1 W2 b2 F1 c1 F2 c2 = refOut dstcol srcw dstw dinv X W1 b1 W2 b2 F1 c1 F2 c2 := by
  have hP1 : ∀ r c, IsR (mmf (rows X) W1 r c) := mmf_isR _ _ (fun r k => hX _) hW1
  have hH : kH dstcol srcw dinv X W1 b1 = rH dstcol srcw dstw dinv X W1 b1 := by
    funext n c
    unfold kH rH kT1
    rw [layer dstcol srcw dstw dinv _ hP1 hd hs n c]
  have hHr : ∀ r c, IsR (rH dstcol srcw dstw dinv X W1 b1 r c) := fun r c =>
    ((aggR_isR dstcol srcw dstw dinv _ hP1 hd r c).add (hb1 _)).max_zero
  have hP2 : ∀ r c, IsR (mmf (rH dstcol srcw dstw dinv X W1 b1) W2 r c) := mmf_isR _ _ hHr hW2
  have hZ : kZ dstcol srcw dinv X W1 b1 W2 b2 = rZ dstcol srcw dstw dinv X W1 b1 W2 b2 := by
    funext n c
    unfold kZ rZ kT2
    rw [hH, layer dstcol srcw dstw dinv _ hP2 hd hs n c]
  unfold kerOut refOut
  rw [hZ]

end Graph

end Cert.Spec

end
-- ==== Proof.Finite.lean ====
/-
  Finiteness of the arrays the layer law needs, read off the precondition.

  For each float argument `a` the precondition computes the conjunction, over every entry, of `|a i| < +∞` (the
  absolute value of an extended real `x` being `max x (-x)`, the comparison the strict order, and the bound the
  extended real `⊤`), and joins the nine results with `and`. The whole conjunction being 1, each of its nine parts
  is 1; a part being 1, each of its entries is 1; and an extended real `x` with `max x (-x) < ⊤` is neither `⊤`
  nor `⊥` (for `x = ⊥` the negation is `⊤`), hence a real number.
-/
import proofs.«137930_j50749333569689_2_alg».proof.Pre_finite_inputs
import proofs.«137930_j50749333569689_2_alg».proof.Proof.Gen.Pre_finite_inputs
import proofs.«137930_j50749333569689_2_alg».proof.Proof.Spec
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx Cert.Pre_finite_inputs

/-- The shape of rank 0 has one index. -/
instance scalarIdxSubsingleton : Subsingleton S_.Idx := ⟨fun a b => funext fun d => d.elim0⟩

/-- An extended real whose absolute value `max x (-x)` is strictly below `⊤` is a real number. -/
theorem isR_of_abs_lt_top (x : EReal) (h : max x (-x) < ⊤) : Spec.IsR x := by
  induction x using EReal.rec with
  | bot => simp at h
  | coe r => exact ⟨r, rfl⟩
  | top => simp at h

/-- One entry: the comparison `|x| < +∞` came out 1, so `x` is a real number. -/
theorem isR_of_cmp (x : Ideal .f32)
    (h : FloatOps.cmpf .olt (FloatOps.hostAbsf x) (FloatOps.ofBits (F := Ideal) .f32 0x7F800000#32) = 1#1) :
    Spec.IsR x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  by_cases hlt : max (x : EReal) (-(x : EReal)) < ⊤
  · exact isR_of_abs_lt_top x hlt
  · simp [hlt] at h'

/-- One array of any shape: the conjunction over all entries of `|a i| < +∞` came out 1, so every entry is a real
    number. -/
theorem isR_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : Spec.IsR (a i) := by
  have h1 := Host.reduce_andi_all _ _ hr hu ix0 e i
  rw [cmpf_apply, broadcastInDim_scalar_apply] at h1
  exact isR_of_cmp (a i) h1

/-- A conjunction of two one-entry truth values that is 1 has both parts 1. -/
theorem both_of_andi {x y : IVec S_ 1} (h : andi x y ix0 = 1#1) : x ix0 = 1#1 ∧ y ix0 = 1#1 :=
  IntOp.andi_eq_one.1 h

/-- The precondition makes the node features, the first layer's weights and bias and the second layer's weights
    arrays of real numbers. The nine conjuncts are nested to the left, the first two innermost; the last five are
    dropped. -/
theorem isR_of_pre (a0 : FVec Ideal S100000x6 .f32) (a1 : IVec S2x1600000 32) (a2 : FVec Ideal S6x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x6 .f32) (a9 : FVec Ideal S6 .f32)
    (h : Cert.Pre_finite_inputs.fn (F := Ideal) a0 a1 a2 a3 a4 a5 a6 a7 a8 a9 = fun _ => 1#1) :
    (∀ i, Spec.IsR (a0 i)) ∧ (∀ i, Spec.IsR (a2 i)) ∧ (∀ i, Spec.IsR (a3 i)) ∧ (∀ i, Spec.IsR (a4 i)) := by
  have h0 := congrFun h ix0
  dsimp only [Cert.Pre_finite_inputs.fn, Cert.Pre_finite_inputs.fn_part1, Cert.Pre_finite_inputs.fn_part2] at h0
  obtain ⟨h8, -⟩ := both_of_andi h0
  obtain ⟨h7, -⟩ := both_of_andi h8
  obtain ⟨h6, -⟩ := both_of_andi h7
  obtain ⟨h5, -⟩ := both_of_andi h6
  obtain ⟨h4, -⟩ := both_of_andi h5
  obtain ⟨h3, e4⟩ := both_of_andi h4
  obtain ⟨h2, e3⟩ := both_of_andi h3
  obtain ⟨e0, e2⟩ := both_of_andi h2
  exact ⟨isR_of_all a0 _ _ _ e0, isR_of_all a2 _ _ _ e2, isR_of_all a3 _ _ _ e3, isR_of_all a4 _ _ _ e4⟩

end Cert.Finite

end
-- ==== Proof.KernelRun.lean ====
/-
  THE PROGRAM'S RUN WITH ITS RESULT NAMED.

  The program is eight segments: three stretches of host operations, a kernel region, a stretch, a region, a stretch, a
  region. The buffer contents at each segment boundary are a fold from the launch memory: a stretch applies its
  operations, a region replaces its arrays by what its write-backs leave. Every weakly fair execution terminates with
  every unscoped buffer at the last boundary's contents; read at the result buffer this names the result array, and
  read at the argument buffers it gives them back as launched.
-/
import proofs.«137930_j50749333569689_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run_out : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.KernelFold.lean ====
/-
  THE KERNEL PROGRAM'S BUFFERS AT ITS SEGMENT BOUNDARIES, READ.

  Between the launch and the return the program's buffers pass nine boundaries: after each of the three opening stretches
  of host operations, after each kernel region, after each stretch between regions. At a boundary a buffer a stretch
  writes holds that operation's function of its operands' contents one boundary earlier; a buffer a region writes holds
  what the region's write-backs leave; every other buffer holds what it held before. Reading backwards from the result:

    result      = region 2's output array, entered with  Zp, D, b2, fc1_w, fc1_b, fc2_w, fc2_b
    Zp          = scatter-add onto zero, at the destination column, of the rows of T2 gathered at the source column
    T2          = region 1's output array, entered with  Hp, D, b1, W2
    Hp          = the same scatter-add of gathered rows, of T1
    T1          = region 0's output array, entered with  x, W1, D
    D           = the degree scale as a column

  The edge words (source and destination columns) and the degree scale are computed by the same host operations as
  in the reference program, so they are named by the reference's stages of the edge array.
-/
import proofs.«137930_j50749333569689_2_alg».proof.Proof.Gen.KernelIdeal.Frame
import proofs.«137930_j50749333569689_2_alg».proof.Proof.ReadP

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v15 val_main_v36 val_main_v42)

variable (m : (ℓ : Loc nD τ sig) → Buf (Elt Ideal) ℓ) (ρ : Dev nD → PrngReg) (c : Dev nD)

/-! ## The opening stretches, read against any contents

  What a stretch leaves in a buffer it writes, as its operation's function of what the stretch leaves in the operands'
  buffers: stated for ANY contents `V` the stretch starts from. -/

section AnyContents

variable (V : Valuation τ sig (Elt Ideal))

set_option maxHeartbeats 2000000 in
/-- The degree: ones added onto zero at the destination words. -/
theorem ops0_v10 : after hostOps0 V (Proc.devRef .tc main_v10)
    = Host.scatterAdd scatter_S100000_S1700000x1_S1700000_n_0_0_1
        (broadcastInDim S100000 ![] bcast_S_S100000 (constant (F := Ideal) S_ .f32 0x00000000#32))
        (broadcastInDim S1700000x1 ![0] bcast_S1700000_S1700000x1_0 (after hostOps0 V (Proc.devRef .tc main_v6)))
        (broadcastInDim S1700000 ![] bcast_S_S1700000 (constant (F := Ideal) S_ .f32 0x3F800000#32)) := by
  after_results <;> rfl

set_option maxHeartbeats 2000000 in
/-- Where the degree is positive. -/
theorem ops0_v12 : after hostOps0 V (Proc.devRef .tc main_v12)
    = cmpf .ogt (after hostOps0 V (Proc.devRef .tc main_v10))
        (broadcastInDim S100000 ![] bcast_S_S100000 (constant (F := Ideal) S_ .f32 0x00000000#32)) := by
  after_results <;> rfl

set_option maxHeartbeats 2000000 in
/-- The reciprocal square root of the degree. -/
theorem ops0_v13 : @Eq (FVec Ideal S100000 .f32) (after hostOps0 V (Proc.devRef .tc main_v13))
    (Host.rsqrt (after hostOps0 V (Proc.devRef .tc main_v10))) := by
  after_results <;> rfl

set_option maxHeartbeats 2000000 in
/-- The zero the scale takes where the degree is not positive. -/
theorem ops0_cst_2 : after hostOps0 V (Proc.devRef .tc main_cst_2) = constant (F := Ideal) S_ .f32 0x00000000#32 := by
  after_results <;> rfl

set_option maxHeartbeats 2000000 in
/-- The degree scale as a column: the selection between the reciprocal square root and zero, reshaped. -/
theorem ops12_v15 : after hostOps0_2 (after hostOps0_1 V) (Proc.devRef .tc main_v15)
    = shapeCast S100000x1 (select (V (Proc.devRef .tc main_v12)) (V (Proc.devRef .tc main_v13))
        (broadcastInDim S100000 ![] bcast_S_S100000 (V (Proc.devRef .tc main_cst_2)))) shapeCasts_S100000_S100000x1 := by
  after_results <;> rfl

/-- The aggregation the host performs between two regions: the rows of the table `T`, gathered at the source words
    (a negative word wrapped by the node count), are added onto a zero array at the destination words. -/
def agg (dst src : IVec S1700000 32) (T : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (Host.gather gather_S100000x128_S1700000x1_S1700000x128_1_0_n_n_0_1_1128 T
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

set_option maxHeartbeats 2000000 in
/-- The stretch between regions 0 and 1 leaves the aggregation of the first table. -/
theorem ops1_v26 : after hostOps1 V (Proc.devRef .tc main_v26)
    = agg (V (Proc.devRef .tc main_v6)) (V (Proc.devRef .tc main_v3)) (V (Proc.devRef .tc main_v16)) := by
  after_results <;> rfl

set_option maxHeartbeats 2000000 in
/-- The stretch between regions 1 and 2 leaves the aggregation of the second table. -/
theorem ops2_v38 : after hostOps2 V (Proc.devRef .tc main_v38)
    = agg (V (Proc.devRef .tc main_v6)) (V (Proc.devRef .tc main_v3)) (V (Proc.devRef .tc main_v28)) := by
  after_results <;> rfl

set_option maxHeartbeats 2000000 in
/-- The stretch between regions 0 and 1 leaves the scale column as it was. -/
theorem ops1_v15 : after hostOps1 V (Proc.devRef .tc main_v15) = V (Proc.devRef .tc main_v15) := by
  after_results <;> rfl

set_option maxHeartbeats 2000000 in
/-- So does the stretch between regions 1 and 2. -/
theorem ops2_v15 : after hostOps2 V (Proc.devRef .tc main_v15) = V (Proc.devRef .tc main_v15) := by
  after_results <;> rfl

end AnyContents

/-- With the words named by the reference's stages, the aggregation is the scatter-add at the reference's destination
    column of the gather at its wrapped source column. -/
theorem agg_eq (E : (⟨S2x1600000, .i32⟩ : BufTy).Contents (Elt Ideal)) (T : FVec Ideal S100000x128 .f32) :
    agg (val_main_v6 (F := Ideal) E) (val_main_v3 (F := Ideal) E) T
      = Host.scatterAdd scatter_S100000x128_S1700000x1_S1700000x128_1_0_0_1
          (broadcastInDim S100000x128 ![] bcast_S_S100000x128 (constant (F := Ideal) S_ .f32 0x00000000#32))
          (val_main_v42 (F := Ideal) E)
          (Host.gather gather_S100000x128_S1700000x1_S1700000x128_1_0_n_n_0_1_1128 T (val_main_v36 (F := Ideal) E)) := rfl

/-! ## After the three opening stretches -/

/-- The source words: the first row of the edge array followed by the self-loops. -/
theorem W3_v3 : W3 m ρ c (Proc.devRef .tc main_v3) = val_main_v3 (F := Ideal) (m ((c : Thread nD τ).loc main_arg1)) := by
  show after hostOps0_2 (after hostOps0_1 (after hostOps0 (W0 m ρ c))) (Proc.devRef .tc main_v3) = _
  after_results <;> rfl

/-- The destination words: the second row of the edge array followed by the self-loops. -/
theorem W3_v6 : W3 m ρ c (Proc.devRef .tc main_v6) = val_main_v6 (F := Ideal) (m ((c : Thread nD τ).loc main_arg1)) := by
  show after hostOps0_2 (after hostOps0_1 (after hostOps0 (W0 m ρ c))) (Proc.devRef .tc main_v6) = _
  after_results <;> rfl

/-- The destination words after the first stretch alone. -/
theorem W1_v6 : after hostOps0 (W0 m ρ c) (Proc.devRef .tc main_v6) = val_main_v6 (F := Ideal) (m ((c : Thread nD τ).loc main_arg1)) := by
  after_results <;> rfl

/-- The degree scale as a column. -/
theorem W3_v15 : W3 m ρ c (Proc.devRef .tc main_v15)
    = shapeCast S100000x1 (val_main_v15 (F := Ideal) (m ((c : Thread nD τ).loc main_arg1))) shapeCasts_S100000_S100000x1 := by
  show after hostOps0_2 (after hostOps0_1 (after hostOps0 (W0 m ρ c))) (Proc.devRef .tc main_v15) = _
  rw [ops12_v15, ops0_v12, ops0_v13, ops0_cst_2, ops0_v10, W1_v6]
  rfl

theorem W3_arg0 : W3 m ρ c (Proc.devRef .tc main_arg0) = m ((c : Thread nD τ).loc main_arg0) := by
  show after hostOps0_2 (after hostOps0_1 (after hostOps0 (W0 m ρ c))) (Proc.devRef .tc main_arg0) = _
  after_results <;> rfl
theorem W3_arg2 : W3 m ρ c (Proc.devRef .tc main_arg2) = m ((c : Thread nD τ).loc main_arg2) := by
  show after hostOps0_2 (after hostOps0_1 (after hostOps0 (W0 m ρ c))) (Proc.devRef .tc main_arg2) = _
  after_results <;> rfl
theorem W3_arg3 : W3 m ρ c (Proc.devRef .tc main_arg3) = m ((c : Thread nD τ).loc main_arg3) := by
  show after hostOps0_2 (after hostOps0_1 (after hostOps0 (W0 m ρ c))) (Proc.devRef .tc main_arg3) = _
  after_results <;> rfl
theorem W3_arg4 : W3 m ρ c (Proc.devRef .tc main_arg4) = m ((c : Thread nD τ).loc main_arg4) := by
  show after hostOps0_2 (after hostOps0_1 (after hostOps0 (W0 m ρ c))) (Proc.devRef .tc main_arg4) = _
  after_results <;> rfl
theorem W3_arg5 : W3 m ρ c (Proc.devRef .tc main_arg5) = m ((c : Thread nD τ).loc main_arg5) := by
  show after hostOps0_2 (after hostOps0_1 (after hostOps0 (W0 m ρ c))) (Proc.devRef .tc main_arg5) = _
  after_results <;> rfl
theorem W3_arg6 : W3 m ρ c (Proc.devRef .tc main_arg6) = m ((c : Thread nD τ).loc main_arg6) := by
  show after hostOps0_2 (after hostOps0_1 (after hostOps0 (W0 m ρ c))) (Proc.devRef .tc main_arg6) = _
  after_results <;> rfl
theorem W3_arg7 : W3 m ρ c (Proc.devRef .tc main_arg7) = m ((c : Thread nD τ).loc main_arg7) := by
  show after hostOps0_2 (after hostOps0_1 (after hostOps0 (W0 m ρ c))) (Proc.devRef .tc main_arg7) = _
  after_results <;> rfl
theorem W3_arg8 : W3 m ρ c (Proc.devRef .tc main_arg8) = m ((c : Thread nD τ).loc main_arg8) := by
  show after hostOps0_2 (after hostOps0_1 (after hostOps0 (W0 m ρ c))) (Proc.devRef .tc main_arg8) = _
  after_results <;> rfl
theorem W3_arg9 : W3 m ρ c (Proc.devRef .tc main_arg9) = m ((c : Thread nD τ).loc main_arg9) := by
  show after hostOps0_2 (after hostOps0_1 (after hostOps0 (W0 m ρ c))) (Proc.devRef .tc main_arg9) = _
  after_results <;> rfl

/-! ## After region 0 -/

/-- The first table: what region 0's write-backs leave. -/
theorem W4_v16 : W4 m ρ c (Proc.devRef .tc main_v16) = (dat0 (V3 m ρ) c).arrAt 3 cfg0.N := W4_arr m ρ c 3

theorem W4_v3 : W4 m ρ c (Proc.devRef .tc main_v3) = val_main_v3 (F := Ideal) (m ((c : Thread nD τ).loc main_arg1)) :=
  (W4_of_ne m ρ c main_v3 (by decide)).trans (W3_v3 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)

/-! ## After the stretch between regions 0 and 1 -/

set_option maxHeartbeats 2000000 in
/-- The first aggregated array: the scatter-add onto zero, at the destination column, of the first table's rows gathered
    at the wrapped source column. -/
theorem W5_v26 : W5 m ρ c (Proc.devRef .tc main_v26)
    = Host.scatterAdd scatter_S100000x128_S1700000x1_S1700000x128_1_0_0_1
        (broadcastInDim S100000x128 ![] bcast_S_S100000x128 (constant (F := Ideal) S_ .f32 0x00000000#32))
        (val_main_v42 (F := Ideal) (m ((c : Thread nD τ).loc main_arg1)))
        (Host.gather gather_S100000x128_S1700000x1_S1700000x128_1_0_n_n_0_1_1128 ((dat0 (V3 m ρ) c).arrAt 3 cfg0.N)
          (val_main_v36 (F := Ideal) (m ((c : Thread nD τ).loc main_arg1)))) := by
  exact (ops1_v26 (W4 m ρ c)).trans
    ((congr (congr (congrArg agg (W4_v6 m ρ c)) (W4_v3 m ρ c)) (W4_v16 m ρ c)).trans (agg_eq _ _))

/-- The first bias as a row. -/
theorem W5_v27 : W5 m ρ c (Proc.devRef .tc main_v27)
    = shapeCast S1x128 (m ((c : Thread nD τ).loc main_arg3)) shapeCasts_S128_S1x128 := by
  show after hostOps1 (W4 m ρ c) (Proc.devRef .tc main_v27) = _
  after_results
  rw [W4_arg3]
  rfl

theorem W5_v15 : W5 m ρ c (Proc.devRef .tc main_v15) = W3 m ρ c (Proc.devRef .tc main_v15) :=
  (ops1_v15 (W4 m ρ c)).trans (W4_v15 m ρ c)
theorem W5_v3 : W5 m ρ c (Proc.devRef .tc main_v3) = val_main_v3 (F := Ideal) (m ((c : Thread nD τ).loc main_arg1)) := by
  show after hostOps1 (W4 m ρ c) (Proc.devRef .tc main_v3) = _
  after_results
  exact W4_v3 m ρ c
theorem W5_v6 : W5 m ρ c (Proc.devRef .tc main_v6) = val_main_v6 (F := Ideal) (m ((c : Thread nD τ).loc main_arg1)) := by
  show after hostOps1 (W4 m ρ c) (Proc.devRef .tc main_v6) = _
  after_results
  exact W4_v6 m ρ c
theorem W5_arg4 : W5 m ρ c (Proc.devRef .tc main_arg4) = m ((c : Thread nD τ).loc main_arg4) := by
  show after hostOps1 (W4 m ρ c) (Proc.devRef .tc main_arg4) = _
  after_results
  exact W4_arg4 m ρ c
theorem W5_arg5 : W5 m ρ c (Proc.devRef .tc main_arg5) = m ((c : Thread nD τ).loc main_arg5) := by
  show after hostOps1 (W4 m ρ c) (Proc.devRef .tc main_arg5) = _
  after_results
  exact W4_arg5 m ρ c
theorem W5_arg6 : W5 m ρ c (Proc.devRef .tc main_arg6) = m ((c : Thread nD τ).loc main_arg6) := by
  show after hostOps1 (W4 m ρ c) (Proc.devRef .tc main_arg6) = _
  after_results
  exact W4_arg6 m ρ c
theorem W5_arg7 : W5 m ρ c (Proc.devRef .tc main_arg7) = m ((c : Thread nD τ).loc main_arg7) := by
  show after hostOps1 (W4 m ρ c) (Proc.devRef .tc main_arg7) = _
  after_results
  exact W4_arg7 m ρ c
theorem W5_arg8 : W5 m ρ c (Proc.devRef .tc main_arg8) = m ((c : Thread nD τ).loc main_arg8) := by
  show after hostOps1 (W4 m ρ c) (Proc.devRef .tc main_arg8) = _
  after_results
  exact W4_arg8 m ρ c
theorem W5_arg9 : W5 m ρ c (Proc.devRef .tc main_arg9) = m ((c : Thread nD τ).loc main_arg9) := by
  show after hostOps1 (W4 m ρ c) (Proc.devRef .tc main_arg9) = _
  after_results
  exact W4_arg9 m ρ c

/-! ## After region 1 -/

/-- The second table: what region 1's write-backs leave. -/
theorem W6_v28 : W6 m ρ c (Proc.devRef .tc main_v28) = (dat1 (V5 m ρ) c).arrAt 4 cfg1.N := W6_arr m ρ c 4

theorem W6_v3 : W6 m ρ c (Proc.devRef .tc main_v3) = val_main_v3 (F := Ideal) (m ((c : Thread nD τ).loc main_arg1)) :=
  (W6_of_ne m ρ c main_v3 (by decide)).trans (W5_v3 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W6_v15 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_v15 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)

/-! ## After the stretch between regions 1 and 2 -/

set_option maxHeartbeats 2000000 in
/-- The second aggregated array. -/
theorem W7_v38 : W7 m ρ c (Proc.devRef .tc main_v38)
    = Host.scatterAdd scatter_S100000x128_S1700000x1_S1700000x128_1_0_0_1
        (broadcastInDim S100000x128 ![] bcast_S_S100000x128 (constant (F := Ideal) S_ .f32 0x00000000#32))
        (val_main_v42 (F := Ideal) (m ((c : Thread nD τ).loc main_arg1)))
        (Host.gather gather_S100000x128_S1700000x1_S1700000x128_1_0_n_n_0_1_1128 ((dat1 (V5 m ρ) c).arrAt 4 cfg1.N)
          (val_main_v36 (F := Ideal) (m ((c : Thread nD τ).loc main_arg1)))) := by
  exact (ops2_v38 (W6 m ρ c)).trans
    ((congr (congr (congrArg agg (W6_v6 m ρ c)) (W6_v3 m ρ c)) (W6_v28 m ρ c)).trans (agg_eq _ _))

theorem W7_v39 : W7 m ρ c (Proc.devRef .tc main_v39)
    = shapeCast S1x128 (m ((c : Thread nD τ).loc main_arg5)) shapeCasts_S128_S1x128 := by
  show after hostOps2 (W6 m ρ c) (Proc.devRef .tc main_v39) = _
  after_results
  rw [W6_arg5]
  rfl
theorem W7_v40 : W7 m ρ c (Proc.devRef .tc main_v40)
    = shapeCast S1x128 (m ((c : Thread nD τ).loc main_arg7)) shapeCasts_S128_S1x128 := by
  show after hostOps2 (W6 m ρ c) (Proc.devRef .tc main_v40) = _
  after_results
  rw [W6_arg7]
  rfl
theorem W7_v41 : W7 m ρ c (Proc.devRef .tc main_v41)
    = shapeCast S1x6 (m ((c : Thread nD τ).loc main_arg9)) shapeCasts_S6_S1x6 := by
  show after hostOps2 (W6 m ρ c) (Proc.devRef .tc main_v41) = _
  after_results
  rw [W6_arg9]
  rfl
theorem W7_v15 : W7 m ρ c (Proc.devRef .tc main_v15) = W3 m ρ c (Proc.devRef .tc main_v15) :=
  (ops2_v15 (W6 m ρ c)).trans (W6_v15 m ρ c)
theorem W7_arg6 : W7 m ρ c (Proc.devRef .tc main_arg6) = m ((c : Thread nD τ).loc main_arg6) := by
  show after hostOps2 (W6 m ρ c) (Proc.devRef .tc main_arg6) = _
  after_results
  exact W6_arg6 m ρ c
theorem W7_arg8 : W7 m ρ c (Proc.devRef .tc main_arg8) = m ((c : Thread nD τ).loc main_arg8) := by
  show after hostOps2 (W6 m ρ c) (Proc.devRef .tc main_arg8) = _
  after_results
  exact W6_arg8 m ρ c

/-! ## After region 2 -/

/-- The result array: what region 2's write-backs leave. -/
theorem W8_v42 : W8 m ρ c (Proc.devRef .tc main_v42) = (dat2 (V7 m ρ) c).arrAt 7 cfg2.N := W8_arr m ρ c 7

end Cert.KernelIdeal.Fold

end
-- ==== Proof.Region0.lean ====
/-
  Region 0: the first dense stage. Every grid point t holds rows 5000·t … 5000·t + 4999 of the node features and of the
  scale column, and the whole weight matrix; its body writes, at row p and column q of the block,
      (Σ_k A (p, k) · W (k, q)) · D (p, 0),
  and the twenty blocks tile the output array. So the array ends holding stage 0 of the three arrays the region finds.
-/
import proofs.«137930_j50749333569689_2_alg».proof.Proof.Gen.KernelIdeal.Frame
import proofs.«137930_j50749333569689_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Regions

open Cert.KernelIdeal Idealize.ShloMosaic Idealize.ShloMosaic.TcCoe Idealize.ShloMosaic.ValueIdx Idealize.SL.Sem
open Idealize.ShloMosaic.Pipeline (Dat)

/-! ## The body's arithmetic at one entry of the block -/

/-- A column `[a, 1]` broadcast to `[a, b]` reads, at `(p, c)`, the column's entry of row `p`. -/
theorem bcastCol0 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem mm0_l0 (i : S5000x128.Idx) (q : dot_S5000x6_S6x128_S5000x128_1_0_0_1_n_n.contr.Idx) : (dot_S5000x6_S6x128_S5000x128_1_0_0_1_n_n.lhsIdx i q 0).val = (i 0).val := by
  unfold DotDims.lhsIdx
  rw [dif_neg (show ¬(0 : Fin S5000x6.rank) ∈ dot_S5000x6_S6x128_S5000x128_1_0_0_1_n_n.lhsBatch by decide), dif_pos (show (0 : Fin S5000x6.rank) ∈ dot_S5000x6_S6x128_S5000x128_1_0_0_1_n_n.lhsNonContracting by decide)]
  rfl
theorem mm0_l1 (i : S5000x128.Idx) (q : dot_S5000x6_S6x128_S5000x128_1_0_0_1_n_n.contr.Idx) : (dot_S5000x6_S6x128_S5000x128_1_0_0_1_n_n.lhsIdx i q 1).val = (q ⟨0, by decide⟩).val :=
  dot_S5000x6_S6x128_S5000x128_1_0_0_1_n_n.lhsIdx_val_of_single rfl i q
theorem mm0_r0 (i : S5000x128.Idx) (q : dot_S5000x6_S6x128_S5000x128_1_0_0_1_n_n.contr.Idx) : (dot_S5000x6_S6x128_S5000x128_1_0_0_1_n_n.rhsIdx i q 0).val = (q ⟨0, by decide⟩).val :=
  dot_S5000x6_S6x128_S5000x128_1_0_0_1_n_n.rhsIdx_val_of_single rfl i q
theorem mm0_r1 (i : S5000x128.Idx) (q : dot_S5000x6_S6x128_S5000x128_1_0_0_1_n_n.contr.Idx) : (dot_S5000x6_S6x128_S5000x128_1_0_0_1_n_n.rhsIdx i q 1).val = (i 1).val := by
  unfold DotDims.rhsIdx
  rw [dif_neg (show ¬(1 : Fin S6x128.rank) ∈ dot_S5000x6_S6x128_S5000x128_1_0_0_1_n_n.rhsBatch by decide), dif_pos (show (1 : Fin S6x128.rank) ∈ dot_S5000x6_S6x128_S5000x128_1_0_0_1_n_n.rhsNonContracting by decide)]
  rfl

/-- The block product into the zero accumulator, at row `p` and column `q`: the sum over the 6 shared coordinates of
    the left factor's row `p` times the right factor's column `q`. -/
theorem mm0 (l : FVec Ideal S5000x6 .bf16) (r : FVec Ideal S6x128 .bf16) (p : Fin 5000) (q : Fin 128) :
    matmul dot_S5000x6_S6x128_S5000x128_1_0_0_1_n_n none l r (constant (F := Ideal) S5000x128 .f32 0x00000000#32) (ix2 p q)
      = ∑ k : Fin 6, l (ix2 p k) * r (ix2 k q) := by
  refine (Ideal.matmul_constant_zero_apply dot_S5000x6_S6x128_S5000x128_1_0_0_1_n_n none l r (ix2 p q)).trans ?_
  rw [← Equiv.sum_comp (contrEquiv1 dot_S5000x6_S6x128_S5000x128_1_0_0_1_n_n 6 rfl rfl).symm]
  refine Finset.sum_congr rfl fun k _ => ?_
  have hk := contrEquiv1_symm_val dot_S5000x6_S6x128_S5000x128_1_0_0_1_n_n 6 rfl rfl k
  have el : dot_S5000x6_S6x128_S5000x128_1_0_0_1_n_n.lhsIdx (ix2 p q) ((contrEquiv1 dot_S5000x6_S6x128_S5000x128_1_0_0_1_n_n 6 rfl rfl).symm k) = ix2 p k := funext fun a => Fin.ext (by
    match a with
    | ⟨0, _⟩ => exact mm0_l0 _ _
    | ⟨1, _⟩ => exact (mm0_l1 _ _).trans hk)
  have er : dot_S5000x6_S6x128_S5000x128_1_0_0_1_n_n.rhsIdx (ix2 p q) ((contrEquiv1 dot_S5000x6_S6x128_S5000x128_1_0_0_1_n_n 6 rfl rfl).symm k) = ix2 k q := funext fun a => Fin.ext (by
    match a with
    | ⟨0, _⟩ => exact (mm0_r0 _ _).trans hk
    | ⟨1, _⟩ => exact mm0_r1 _ _)
  rw [el, er]

/-- THE BODY AT ONE ENTRY: the product of row `p` of the features with column `q` of the weights, times the scale of
    row `p` (the two narrowings are the identity on extended reals; the scale column is spread over the 128 columns). -/
theorem pay0 (x0 : Vec Ideal S5000x6 .f32) (x1 : Vec Ideal S6x128 .f32) (x2 : Vec Ideal S5000x1 .f32)
    (p : Fin 5000) (q : Fin 128) :
    Gen.k0_pay1 x0 x1 x2 (ix2 p q) = (∑ k : Fin 6, x0 (ix2 p k) * x1 (ix2 k q)) * x2 (ix2 p (0 : Fin 1)) := by
  unfold Gen.k0_pay1
  refine (mulf_apply _ _ (ix2 p q)).trans ?_
  refine congrArg₂ (· * ·) ?_ ?_
  · exact mm0 _ _ p q
  · rw [shapeCast_self]
    exact bcastCol0 x2 _ p q

/-! ## From the twenty blocks to the array -/

theorem hz0 : (![0, 0] : Fin 2 → Nat) = fun _ => 0 := funext fun a => by fin_cases a <;> rfl

/-- The printed index maps, decided over the twenty points: the three row-blocked windows sit at block `(t, 0)`, the
    weights at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What the array ends holding: `(Σ_k A (r, k) · W (k, q)) · D (r, 0)` at `(r, q)`. -/
abbrev G0f (A : S100000x6.Idx → EReal) (W : S6x128.Idx → EReal) (D : S100000x1.Idx → EReal) : S100000x128.Idx → EReal := fun i =>
  (∑ k : Fin 6, A (ix2 (i 0) k) * W (ix2 k (i 1))) * D (ix2 (i 0) (0 : Fin 1))
abbrev G0 (c : Dev nD) : S100000x128.Idx → EReal := G0f (V c main_arg0) (V c main_arg2) (V c main_v15)

/-- The features' block at point `t` is rows `5000·t … 5000·t + 4999` of the array. -/
theorem blk0_0 (c : Dev nD) (t : Fin cfg0.N) (x : S5000x6.Idx) (k : S100000x6.Idx)
    (hk0 : (k 0).val = t.val * 5000 + (x 0).val) (hk1 : (k 1).val = (x 1).val) :
    (Gen.iblk0 V c 0 t : Vec Ideal S5000x6 .f32) x = (V c main_arg0 : S100000x6.Idx → EReal) k := by
  obtain ⟨e0, e1, -⟩ := idx0 t
  unfold Gen.iblk0
  rw [View.read_apply]
  show (V c main_arg0 : S100000x6.Idx → EReal) _ = (V c main_arg0 : S100000x6.Idx → EReal) _
  congr 1
  funext a
  apply Fin.ext
  match a with
  | ⟨0, _⟩ => show win0_0.index t 0 * 5000 + 1 * (x 0).val = (k 0).val; rw [e0, hk0]; omega
  | ⟨1, _⟩ => show win0_0.index t 1 * 6 + 1 * (x 1).val = (k 1).val; rw [e1, hk1]; omega

/-- The weights' block at every point is the whole array. -/
theorem blk0_1 (c : Dev nD) (t : Fin cfg0.N) (x k : S6x128.Idx)
    (hk0 : (k 0).val = (x 0).val) (hk1 : (k 1).val = (x 1).val) :
    (Gen.iblk0 V c 1 t : Vec Ideal S6x128 .f32) x = (V c main_arg2 : S6x128.Idx → EReal) k := by
  obtain ⟨-, -, e0, e1, -⟩ := idx0 t
  unfold Gen.iblk0
  rw [View.read_apply]
  show (V c main_arg2 : S6x128.Idx → EReal) _ = (V c main_arg2 : S6x128.Idx → EReal) _
  congr 1
  funext a
  apply Fin.ext
  match a with
  | ⟨0, _⟩ => show win0_1.index t 0 * 6 + 1 * (x 0).val = (k 0).val; rw [e0, hk0]; omega
  | ⟨1, _⟩ => show win0_1.index t 1 * 128 + 1 * (x 1).val = (k 1).val; rw [e1, hk1]; omega

/-- The scale column's block at point `t` is rows `5000·t … 5000·t + 4999` of the column. -/
theorem blk0_2 (c : Dev nD) (t : Fin cfg0.N) (x : S5000x1.Idx) (k : S100000x1.Idx)
    (hk0 : (k 0).val = t.val * 5000 + (x 0).val) (hk1 : (k 1).val = (x 1).val) :
    (Gen.iblk0 V c 2 t : Vec Ideal S5000x1 .f32) x = (V c main_v15 : S100000x1.Idx → EReal) k := by
  obtain ⟨-, -, -, -, e0, e1, -⟩ := idx0 t
  unfold Gen.iblk0
  rw [View.read_apply]
  show (V c main_v15 : S100000x1.Idx → EReal) _ = (V c main_v15 : S100000x1.Idx → EReal) _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- WHAT POINT `t` WRITES BACK is block `t` of the stage's result: entry `(p, q)` of the block is entry
    `(5000·t + p, q)` of the array, and the body read rows `5000·t + p` of the features and of the scale there. -/
theorem flushed0 (c : Dev nD) (t : Fin cfg0.N) :
    (Gen.dat0 V c).flushed 3 t = ((cfg0.win 3).blk t).view.read (Elt Ideal) (G0 V c) := by
  show (cfg0.win 3).cut (grid0.coords t) ((Gen.dat0 V c).after 3 t) = _
  rw [Gen.after0_3]
  unfold Gen.out0_3
  rw [View.canon_unit_zero hz0]
  simp only [View.ld_unit_zero (S := S5000x6) hz0, View.ld_unit_zero (S := S6x128) hz0, View.ld_unit_zero (S := S5000x1) hz0]
  obtain ⟨-, -, -, -, -, -, e0, e1⟩ := idx0 t
  funext j
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (Gen.iblk0 V c 2 t) (ix2 p q) = G0 V c (((cfg0.win 3).blk t).view.emb (ix2 p q))
  refine (pay0 (Gen.iblk0 V c 0 t) (Gen.iblk0 V c 1 t) (Gen.iblk0 V c 2 t) p q).trans ?_
  have h0 : ((((cfg0.win 3).blk t).view.emb (ix2 p q) : S100000x128.Idx) 0).val = t.val * 5000 + p.val := by
    show win0_3.index t 0 * 5000 + 1 * p.val = _; rw [e0]; omega
  have h1 : ((((cfg0.win 3).blk t).view.emb (ix2 p q) : S100000x128.Idx) 1).val = q.val := by
    show win0_3.index t 1 * 128 + 1 * q.val = _; rw [e1]; omega
  refine congrArg₂ (· * ·) (Finset.sum_congr rfl fun k _ => congrArg₂ (· * ·) ?_ ?_) ?_
  · exact blk0_0 V c t (ix2 p k) (ix2 ((((cfg0.win 3).blk t).view.emb (ix2 p q) : S100000x128.Idx) 0) k) h0 rfl
  · exact blk0_1 V c t (ix2 k q) (ix2 k ((((cfg0.win 3).blk t).view.emb (ix2 p q) : S100000x128.Idx) 1)) rfl h1
  · exact blk0_2 V c t (ix2 p (0 : Fin 1)) (ix2 ((((cfg0.win 3).blk t).view.emb (ix2 p q) : S100000x128.Idx) 0) (0 : Fin 1)) h0 rfl

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The twenty blocks tile the array: row `r` is in the block of point `r / 5000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  have ht : (i 0).val / 5000 < cfg0.N := by rw [hN]; omega
  obtain ⟨-, -, -, -, -, -, e0, e1⟩ := idx0 ⟨(i 0).val / 5000, ht⟩
  have e0' : win0_3.index ⟨(i 0).val / 5000, ht⟩ (0 : Fin 2) = (i 0).val / 5000 := e0
  refine ⟨⟨(i 0).val / 5000, ht⟩, Gen.flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- THE ARRAY AFTER THE REGION: the stage's result, entry by entry. -/
theorem region0_arr (c : Dev nD) : (Gen.dat0 V c).arrAt 3 cfg0.N = G0 V c :=
  (Gen.dat0 V c).arrAt_eq_of_cover 3 (G0 V c) (fun t _ => flushed0 V c t) cover0

/-- The written-out function is stage 0 of the specification, read as an array: the definitions unfold to it. -/
theorem G0f_eq (A : S100000x6.Idx → EReal) (W : S6x128.Idx → EReal) (D : S100000x1.Idx → EReal) :
    G0f A W D = Spec.asArr (Spec.stage0 A W D) := rfl

/-- REGION 0's OUTPUT ARRAY is stage 0 of the arrays the region finds. -/
theorem region0 (c : Dev nD) :
    (Gen.dat0 V c).arrAt 3 cfg0.N = Spec.asArr (Spec.stage0 (V c main_arg0) (V c main_arg2) (V c main_v15)) :=
  (region0_arr V c).trans (G0f_eq _ _ _)

end

end Cert.KernelIdeal.Regions

end
-- ==== Proof.Region1.lean ====
/-
  Region 1: the second dense stage. Every grid point t holds rows 5000·t … 5000·t + 4999 of the aggregated table and of
  the scale column, and the whole bias row and weight matrix; its body writes, at row p and column q of the block,
      (Σ_k max (D (p, 0) · Hp (p, k) + B (0, k)) 0 · W (k, q)) · D (p, 0),
  and the twenty blocks tile the output array. So the array ends holding stage 1 of the four arrays the region finds.
-/
import proofs.«137930_j50749333569689_2_alg».proof.Proof.Gen.KernelIdeal.Frame
import proofs.«137930_j50749333569689_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Regions

open Cert.KernelIdeal Idealize.ShloMosaic Idealize.ShloMosaic.TcCoe Idealize.ShloMosaic.ValueIdx Idealize.SL.Sem
open Idealize.ShloMosaic.Pipeline (Dat)

/-! ## The body's arithmetic at one entry of the block -/

/-- A column `[a, 1]` broadcast to `[a, b]` reads, at `(p, c)`, the column's entry of row `p`. -/
theorem bcastCol1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem mm1_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm1_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem mm1_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem mm1_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the 128 shared coordinates of
    the left factor's row `p` times the right factor's column `q`. -/
theorem mm1 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm1_l0 _ _
    | ⟨1, _⟩ => exact (mm1_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm1_r0 _ _).trans hk
    | ⟨1, _⟩ => exact mm1_r1 _ _)
  rw [el, er]

/-- THE BODY AT ONE ENTRY: row `p` of the table is scaled, the bias row added and the maximum with zero taken; that row
    times column `q` of the weights, times the scale of row `p` (the narrowings are the identity on extended reals,
    the scale column is spread over the 128 columns and the bias row over the 5000 rows, the zero word is `0`). -/
theorem pay1 (v0 : Vec Ideal S5000x1 .f32) (v2 : Vec Ideal S5000x128 .f32) (v6 : Vec Ideal S1x128 .f32)
    (v13 : Vec Ideal S128x128 .f32) (p : Fin 5000) (q : Fin 128) :
    Gen.k1_pay1 v0 v2 v6 v13 (ix2 p q)
      = (∑ k : Fin 128, max (v0 (ix2 p (0 : Fin 1)) * v2 (ix2 p k) + v6 (ix2 (0 : Fin 1) k)) 0 * v13 (ix2 k q))
          * v0 (ix2 p (0 : Fin 1)) := by
  unfold Gen.k1_pay1
  simp only [shapeCast_self]
  refine (mulf_apply _ _ (ix2 p q)).trans ?_
  refine congrArg₂ (· * ·) ?_ (bcastCol1 v0 _ p q)
  refine (mm1 _ _ p q).trans ?_
  refine Finset.sum_congr rfl fun k _ => congrArg₂ (· * ·) ?_ rfl
  show max (broadcastTo S5000x128 v0 _ (ix2 p k) * v2 (ix2 p k) + broadcastTo S5000x128 v6 _ (ix2 p k))
    (Ideal.ofBits .f32 0x00000000#32) = _
  rw [bcastCol1 v0 _ p k, broadcastTo_1b_ab_apply v6 _ p k, Ideal.ofBits_zero_f32]

/-! ## From the twenty blocks to the array -/

theorem hz1 : (![0, 0] : Fin 2 → Nat) = fun _ => 0 := funext fun a => by fin_cases a <;> rfl

/-! The printed index maps, decided over the twenty points: the row-blocked windows sit at block `(t, 0)`, the bias row
    and the weights at block `(0, 0)`. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- What the array ends holding: `(Σ_k max (D (r, 0) · Hp (r, k) + B (0, k)) 0 · W (k, q)) · D (r, 0)` at `(r, q)`. -/
abbrev G1f (Hp : S100000x128.Idx → EReal) (D : S100000x1.Idx → EReal) (B : S1x128.Idx → EReal) (W : S128x128.Idx → EReal) :
    S100000x128.Idx → EReal := fun i =>
  (∑ k : Fin 128, max (D (ix2 (i 0) (0 : Fin 1)) * Hp (ix2 (i 0) k) + B (ix2 (0 : Fin 1) k)) 0 * W (ix2 k (i 1)))
    * D (ix2 (i 0) (0 : Fin 1))
abbrev G1 (c : Dev nD) : S100000x128.Idx → EReal := G1f (V c main_v26) (V c main_v15) (V c main_v27) (V c main_arg4)

/-- The table's block at point `t` is rows `5000·t … 5000·t + 4999` of the array. -/
theorem blk1_0 (c : Dev nD) (t : Fin cfg1.N) (x : S5000x128.Idx) (k : S100000x128.Idx)
    (hk0 : (k 0).val = t.val * 5000 + (x 0).val) (hk1 : (k 1).val = (x 1).val) :
    (Gen.iblk1 V c 0 t : Vec Ideal S5000x128 .f32) x = (V c main_v26 : S100000x128.Idx → EReal) k := by
  obtain ⟨e0, e1⟩ := idx1_0 t
  unfold Gen.iblk1
  rw [View.read_apply]
  show (V c main_v26 : S100000x128.Idx → EReal) _ = (V c main_v26 : S100000x128.Idx → EReal) _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The scale column's block at point `t` is rows `5000·t … 5000·t + 4999` of the column. -/
theorem blk1_1 (c : Dev nD) (t : Fin cfg1.N) (x : S5000x1.Idx) (k : S100000x1.Idx)
    (hk0 : (k 0).val = t.val * 5000 + (x 0).val) (hk1 : (k 1).val = (x 1).val) :
    (Gen.iblk1 V c 1 t : Vec Ideal S5000x1 .f32) x = (V c main_v15 : S100000x1.Idx → EReal) k := by
  obtain ⟨e0, e1⟩ := idx1_1 t
  unfold Gen.iblk1
  rw [View.read_apply]
  show (V c main_v15 : S100000x1.Idx → EReal) _ = (V c main_v15 : S100000x1.Idx → EReal) _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias row's block at every point is the whole row. -/
theorem blk1_2 (c : Dev nD) (t : Fin cfg1.N) (x k : S1x128.Idx)
    (hk0 : (k 0).val = (x 0).val) (hk1 : (k 1).val = (x 1).val) :
    (Gen.iblk1 V c 2 t : Vec Ideal S1x128 .f32) x = (V c main_v27 : S1x128.Idx → EReal) k := by
  obtain ⟨e0, e1⟩ := idx1_2 t
  unfold Gen.iblk1
  rw [View.read_apply]
  show (V c main_v27 : S1x128.Idx → EReal) _ = (V c main_v27 : S1x128.Idx → EReal) _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-- The weights' block at every point is the whole array. -/
theorem blk1_3 (c : Dev nD) (t : Fin cfg1.N) (x k : S128x128.Idx)
    (hk0 : (k 0).val = (x 0).val) (hk1 : (k 1).val = (x 1).val) :
    (Gen.iblk1 V c 3 t : Vec Ideal S128x128 .f32) x = (V c main_arg4 : S128x128.Idx → EReal) k := by
  obtain ⟨e0, e1⟩ := idx1_3 t
  unfold Gen.iblk1
  rw [View.read_apply]
  show (V c main_arg4 : S128x128.Idx → EReal) _ = (V c main_arg4 : S128x128.Idx → EReal) _
  congr 1
  funext a
  apply Fin.ext
  match a with
  | ⟨0, _⟩ => show win1_3.index t 0 * 128 + 1 * (x 0).val = (k 0).val; rw [e0, hk0]; omega
  | ⟨1, _⟩ => show win1_3.index t 1 * 128 + 1 * (x 1).val = (k 1).val; rw [e1, hk1]; omega

/-- WHAT POINT `t` WRITES BACK is block `t` of the stage's result: entry `(p, q)` of the block is entry
    `(5000·t + p, q)` of the array, and the body read rows `5000·t + p` of the table and of the scale there. -/
theorem flushed1 (c : Dev nD) (t : Fin cfg1.N) :
    (Gen.dat1 V c).flushed 4 t = ((cfg1.win 4).blk t).view.read (Elt Ideal) (G1 V c) := by
  show (cfg1.win 4).cut (grid1.coords t) ((Gen.dat1 V c).after 4 t) = _
  rw [Gen.after1_4]
  unfold Gen.out1_4
  rw [View.canon_unit_zero hz1]
  simp only [View.ld_unit_zero (S := S5000x1) hz1, View.ld_unit_zero (S := S5000x128) hz1, View.ld_unit_zero (S := S1x128) hz1,
    View.ld_unit_zero (S := S128x128) hz1]
  obtain ⟨e0, e1⟩ := idx1_4 t
  funext j
  obtain ⟨p, q, rfl⟩ : ∃ (p : Fin 5000) (q : Fin 128), j = ix2 p q := ⟨j 0, j 1, eq_ix2 j⟩
  show Gen.k1_pay1 (Gen.iblk1 V c 1 t) (Gen.iblk1 V c 0 t) (Gen.iblk1 V c 2 t) (Gen.iblk1 V c 3 t) (ix2 p q)
    = G1 V c (((cfg1.win 4).blk t).view.emb (ix2 p q))
  refine (pay1 (Gen.iblk1 V c 1 t) (Gen.iblk1 V c 0 t) (Gen.iblk1 V c 2 t) (Gen.iblk1 V c 3 t) p q).trans ?_
  have h0 : ((((cfg1.win 4).blk t).view.emb (ix2 p q) : S100000x128.Idx) 0).val = t.val * 5000 + p.val := by
    show win1_4.index t 0 * 5000 + 1 * p.val = _; rw [e0]; omega
  have h1 : ((((cfg1.win 4).blk t).view.emb (ix2 p q) : S100000x128.Idx) 1).val = q.val := by
    show win1_4.index t 1 * 128 + 1 * q.val = _; rw [e1]; omega
  refine congrArg₂ (· * ·) (Finset.sum_congr rfl fun k _ => congrArg₂ (· * ·)
    (congrArg₂ max (congrArg₂ (· + ·) (congrArg₂ (· * ·) ?_ ?_) ?_) rfl) ?_) ?_
  · exact blk1_1 V c t (ix2 p (0 : Fin 1)) (ix2 ((((cfg1.win 4).blk t).view.emb (ix2 p q) : S100000x128.Idx) 0) (0 : Fin 1)) h0 rfl
  · exact blk1_0 V c t (ix2 p k) (ix2 ((((cfg1.win 4).blk t).view.emb (ix2 p q) : S100000x128.Idx) 0) k) h0 rfl
  · exact blk1_2 V c t (ix2 (0 : Fin 1) k) (ix2 (0 : Fin 1) k) rfl rfl
  · exact blk1_3 V c t (ix2 k q) (ix2 k ((((cfg1.win 4).blk t).view.emb (ix2 p q) : S100000x128.Idx) 1)) rfl h1
  · exact blk1_1 V c t (ix2 p (0 : Fin 1)) (ix2 ((((cfg1.win 4).blk t).view.emb (ix2 p q) : S100000x128.Idx) 0) (0 : Fin 1)) h0 rfl

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- The twenty blocks tile the array: row `r` is in the block of point `r / 5000`. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := Gen.N_1
  have ht : (i 0).val / 5000 < cfg1.N := by rw [hN]; omega
  obtain ⟨e0, e1⟩ := idx1_4 ⟨(i 0).val / 5000, ht⟩
  have e0' : win1_4.index ⟨(i 0).val / 5000, ht⟩ (0 : Fin 2) = (i 0).val / 5000 := e0
  refine ⟨⟨(i 0).val / 5000, ht⟩, Gen.flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0']; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- THE ARRAY AFTER THE REGION: the stage's result, entry by entry. -/
theorem region1_arr (c : Dev nD) : (Gen.dat1 V c).arrAt 4 cfg1.N = G1 V c :=
  (Gen.dat1 V c).arrAt_eq_of_cover 4 (G1 V c) (fun t _ => flushed1 V c t) cover1

/-- The written-out function is stage 1 of the specification, read as an array: the definitions unfold to it. -/
theorem G1f_eq (Hp : S100000x128.Idx → EReal) (D : S100000x1.Idx → EReal) (B : S1x128.Idx → EReal) (W : S128x128.Idx → EReal) :
    G1f Hp D B W = Spec.asArr (Spec.stage1 Hp D B W) := rfl

/-- REGION 1's OUTPUT ARRAY is stage 1 of the arrays the region finds. -/
theorem region1 (c : Dev nD) :
    (Gen.dat1 V c).arrAt 4 cfg1.N
      = Spec.asArr (Spec.stage1 (V c main_v26) (V c main_v15) (V c main_v27) (V c main_arg4)) :=
  (region1_arr V c).trans (G1f_eq _ _ _ _)

end

end Cert.KernelIdeal.Regions

end
-- ==== Proof.Region2.lean ====
/-
  Region 2: the second layer's scaling and the decoder. Every grid point t holds rows 5000·t … 5000·t + 4999 of the
  aggregated table and of the scale column, and the whole of two bias rows, two weight matrices and the output bias row;
  with Z (p, k) = D (p, 0) · Zp (p, k) + B2 (0, k) its body writes, at row p and column q of the block,
      Σ_k max (Σ_k' Z (p, k') · F1 (k', k) + C1 (0, k)) 0 · F2 (k, q) + C2 (0, q),
  and the twenty blocks tile the output array. So the array ends holding stage 2 of the seven arrays the region finds.
-/
import proofs.«137930_j50749333569689_2_alg».proof.Proof.Gen.KernelIdeal.Frame
import proofs.«137930_j50749333569689_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Regions

open Cert.KernelIdeal Idealize.ShloMosaic Idealize.ShloMosaic.TcCoe Idealize.ShloMosaic.ValueIdx Idealize.SL.Sem
open Idealize.ShloMosaic.Pipeline (Dat)

/-! ## The body's arithmetic at one entry of the block -/

/-- A column `[a, 1]` broadcast to `[a, b]` reads, at `(p, c)`, the column's entry of row `p`. -/
theorem bcastCol2 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem mm2a_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm2a_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem mm2a_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem mm2a_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the 128 shared coordinates of
    the left factor's row `p` times the right factor's column `q`. -/
theorem mm2a (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm2a_l0 _ _
    | ⟨1, _⟩ => exact (mm2a_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm2a_r0 _ _).trans hk
    | ⟨1, _⟩ => exact mm2a_r1 _ _)
  rw [el, er]

theorem mm2b_l0 (i : S5000x6.Idx) (q : dot_S5000x128_S128x6_S5000x6_1_0_0_1_n_n.contr.Idx) : (dot_S5000x128_S128x6_S5000x6_1_0_0_1_n_n.lhsIdx i q 0).val = (i 0).val := by
  unfold DotDims.lhsIdx
  rw [dif_neg (show ¬(0 : Fin S5000x128.rank) ∈ dot_S5000x128_S128x6_S5000x6_1_0_0_1_n_n.lhsBatch by decide), dif_pos (show (0 : Fin S5000x128.rank) ∈ dot_S5000x128_S128x6_S5000x6_1_0_0_1_n_n.lhsNonContracting by decide)]
  rfl
theorem mm2b_l1 (i : S5000x6.Idx) (q : dot_S5000x128_S128x6_S5000x6_1_0_0_1_n_n.contr.Idx) : (dot_S5000x128_S128x6_S5000x6_1_0_0_1_n_n.lhsIdx i q 1).val = (q ⟨0, by decide⟩).val :=
  dot_S5000x128_S128x6_S5000x6_1_0_0_1_n_n.lhsIdx_val_of_single rfl i q
theorem mm2b_r0 (i : S5000x6.Idx) (q : dot_S5000x128_S128x6_S5000x6_1_0_0_1_n_n.contr.Idx) : (dot_S5000x128_S128x6_S5000x6_1_0_0_1_n_n.rhsIdx i q 0).val = (q ⟨0, by decide⟩).val :=
  dot_S5000x128_S128x6_S5000x6_1_0_0_1_n_n.rhsIdx_val_of_single rfl i q
theorem mm2b_r1 (i : S5000x6.Idx) (q : dot_S5000x128_S128x6_S5000x6_1_0_0_1_n_n.contr.Idx) : (dot_S5000x128_S128x6_S5000x6_1_0_0_1_n_n.rhsIdx i q 1).val = (i 1).val := by
  unfold DotDims.rhsIdx
  rw [dif_neg (show ¬(1 : Fin S128x6.rank) ∈ dot_S5000x128_S128x6_S5000x6_1_0_0_1_n_n.rhsBatch by decide), dif_pos (show (1 : Fin S128x6.rank) ∈ dot_S5000x128_S128x6_S5000x6_1_0_0_1_n_n.rhsNonContracting by decide)]
  rfl

/-- The block product into the zero accumulator, at row `p` and column `q`: the sum over the 128 shared coordinates of
    the left factor's row `p` times the right factor's column `q`. -/
theorem mm2b (l : FVec Ideal S5000x128 .bf16) (r : FVec Ideal S128x6 .bf16) (p : Fin 5000) (q : Fin 6) :
    matmul dot_S5000x128_S128x6_S5000x6_1_0_0_1_n_n none l r (constant (F := Ideal) S5000x6 .f32 0x00000000#32) (ix2 p q)
      = ∑ k : Fin 128, l (ix2 p k) * r (ix2 k q) := by
  refine (Ideal.matmul_constant_zero_apply dot_S5000x128_S128x6_S5000x6_1_0_0_1_n_n none l r (ix2 p q)).trans ?_
  rw [← Equiv.sum_comp (contrEquiv1 dot_S5000x128_S128x6_S5000x6_1_0_0_1_n_n 128 rfl rfl).symm]
  refine Finset.sum_congr rfl fun k _ => ?_
  have hk := contrEquiv1_symm_val dot_S5000x128_S128x6_S5000x6_1_0_0_1_n_n 128 rfl rfl k
  have el : dot_S5000x128_S128x6_S5000x6_1_0_0_1_n_n.lhsIdx (ix2 p q) ((contrEquiv1 dot_S5000x128_S128x6_S5000x6_1_0_0_1_n_n 128 rfl rfl).symm k) = ix2 p k := funext fun a => Fin.ext (by
    match a with
    | ⟨0, _⟩ => exact mm2b_l0 _ _
    | ⟨1, _⟩ => exact (mm2b_l1 _ _).trans hk)
  have er : dot_S5000x128_S128x6_S5000x6_1_0_0_1_n_n.rhsIdx (ix2 p q) ((contrEquiv1 dot_S5000x128_S128x6_S5000x6_1_0_0_1_n_n 128 rfl rfl).symm k) = ix2 k q := funext fun a => Fin.ext (by
    match a with
    | ⟨0, _⟩ => exact (mm2b_r0 _ _).trans hk
    | ⟨1, _⟩ => exact mm2b_r1 _ _)
  rw [el, er]

/-- The second layer's value at one entry: the table's entry times the scale of its row, plus the bias of its column
    (the scale column spread over the 128 columns, the bias row over the 5000 rows). -/
theorem lin2 (v0 : Vec Ideal S5000x1 .f32) (v2 : Vec Ideal S5000x128 .f32) (v6 : Vec Ideal S1x128 .f32)
    (h0 : S5000x1.Broadcasts S5000x128) (h6 : S1x128.Broadcasts S5000x128) (p : Fin 5000) (k : Fin 128) :
    (addf (mulf (broadcastTo S5000x128 v0 h0 : FVec Ideal S5000x128 .f32) v2) (broadcastTo S5000x128 v6 h6 : FVec Ideal S5000x128 .f32)
        : FVec Ideal S5000x128 .f32) (ix2 p k)
      = v0 (ix2 p (0 : Fin 1)) * v2 (ix2 p k) + v6 (ix2 (0 : Fin 1) k) := by
  show broadcastTo S5000x128 v0 h0 (ix2 p k) * v2 (ix2 p k) + broadcastTo S5000x128 v6 h6 (ix2 p k) = _
  rw [bcastCol2 v0 h0 p k, broadcastTo_1b_ab_apply v6 h6 p k]

/-- The decoder's hidden value at one entry: a product's entry plus the bias of its column, its maximum with zero
    (the zero word is `0`). -/
theorem relu2 (m : Vec Ideal S5000x128 .f32) (v14 : Vec Ideal S1x128 .f32) (h14 : S1x128.Broadcasts S5000x128)
    (p : Fin 5000) (k : Fin 128) :
    maximumf (addf m (broadcastTo S5000x128 v14 h14)) (broadcast S5000x128 (Scalar.ofBits (F := Ideal) .f32 0x00000000#32)) (ix2 p k)
      = max (m (ix2 p k) + v14 (ix2 (0 : Fin 1) k)) 0 := by
  show max (m (ix2 p k) + broadcastTo S5000x128 v14 h14 (ix2 p k)) (Ideal.ofBits .f32 0x00000000#32) = _
  rw [broadcastTo_1b_ab_apply v14 h14 p k, Ideal.ofBits_zero_f32]

/-- THE BODY AT ONE ENTRY (the narrowings are the identity on extended reals). -/
theorem pay2 (v0 : Vec Ideal S5000x1 .f32) (v2 : Vec Ideal S5000x128 .f32) (v6 : Vec Ideal S1x128 .f32)
    (v11 : Vec Ideal S128x128 .f32) (v14 : Vec Ideal S1x128 .f32) (v21 : Vec Ideal S128x6 .f32) (v24 : Vec Ideal S1x6 .f32)
    (p : Fin 5000) (q : Fin 6) :
    Gen.k2_pay1 v0 v2 v6 v11 v14 v21 v24 (ix2 p q)
      = (∑ k : Fin 128, max ((∑ k' : Fin 128, (v0 (ix2 p (0 : Fin 1)) * v2 (ix2 p k') + v6 (ix2 (0 : Fin 1) k')) * v11 (ix2 k' k))
            + v14 (ix2 (0 : Fin 1) k)) 0 * v21 (ix2 k q))
          + v24 (ix2 (0 : Fin 1) q) := by
  unfold Gen.k2_pay1
  simp only [shapeCast_self]
  refine (addf_apply _ _ (ix2 p q)).trans ?_
  refine congrArg₂ (· + ·) ?_ (broadcastTo_1b_ab_apply v24 _ p q)
  refine (mm2b _ _ p q).trans ?_
  refine Finset.sum_congr rfl fun k _ => congrArg₂ (· * ·) ?_ rfl
  refine (relu2 _ v14 _ p k).trans ?_
  refine congrArg₂ max (congrArg₂ (· + ·) ?_ rfl) rfl
  refine (mm2a _ _ p k).trans ?_
  exact Finset.sum_congr rfl fun k' _ => congrArg₂ (· * ·) (lin2 v0 v2 v6 _ _ p k') rfl

/-! ## From the twenty blocks to the array -/

theorem hz2 : (![0, 0] : Fin 2 → Nat) = fun _ => 0 := funext fun a => by fin_cases a <;> rfl

/-! The printed index maps, decided over the twenty points: the row-blocked windows sit at block `(t, 0)`, the bias rows
    and the weight matrices at block `(0, 0)`. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))

/-- What the array ends holding, at `(r, q)`. -/
abbrev G2f (Zp : S100000x128.Idx → EReal) (D : S100000x1.Idx → EReal) (B2 : S1x128.Idx → EReal) (F1 : S128x128.Idx → EReal)
    (C1 : S1x128.Idx → EReal) (F2 : S128x6.Idx → EReal) (C2 : S1x6.Idx → EReal) : S100000x6.Idx → EReal := fun i =>
  (∑ k : Fin 128, max ((∑ k' : Fin 128, (D (ix2 (i 0) (0 : Fin 1)) * Zp (ix2 (i 0) k') + B2 (ix2 (0 : Fin 1) k')) * F1 (ix2 k' k))
      + C1 (ix2 (0 : Fin 1) k)) 0 * F2 (ix2 k (i 1)))
    + C2 (ix2 (0 : Fin 1) (i 1))
abbrev G2 (c : Dev nD) : S100000x6.Idx → EReal :=
  G2f (V c main_v38) (V c main_v15) (V c main_v39) (V c main_arg6) (V c main_v40) (V c main_arg8) (V c main_v41)

/-- The table's block at point `t` is rows `5000·t … 5000·t + 4999` of the array. -/
theorem blk2_0 (c : Dev nD) (t : Fin cfg2.N) (x : S5000x128.Idx) (k : S100000x128.Idx)
    (hk0 : (k 0).val = t.val * 5000 + (x 0).val) (hk1 : (k 1).val = (x 1).val) :
    (Gen.iblk2 V c 0 t : Vec Ideal S5000x128 .f32) x = (V c main_v38 : S100000x128.Idx → EReal) k := by
  obtain ⟨e0, e1⟩ := idx2_0 t
  unfold Gen.iblk2
  rw [View.read_apply]
  show (V c main_v38 : S100000x128.Idx → EReal) _ = (V c main_v38 : S100000x128.Idx → EReal) _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The scale column's block at point `t` is rows `5000·t … 5000·t + 4999` of the column. -/
theorem blk2_1 (c : Dev nD) (t : Fin cfg2.N) (x : S5000x1.Idx) (k : S100000x1.Idx)
    (hk0 : (k 0).val = t.val * 5000 + (x 0).val) (hk1 : (k 1).val = (x 1).val) :
    (Gen.iblk2 V c 1 t : Vec Ideal S5000x1 .f32) x = (V c main_v15 : S100000x1.Idx → EReal) k := by
  obtain ⟨e0, e1⟩ := idx2_1 t
  unfold Gen.iblk2
  rw [View.read_apply]
  show (V c main_v15 : S100000x1.Idx → EReal) _ = (V c main_v15 : S100000x1.Idx → EReal) _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The second layer's bias row: its block at every point is the whole row. -/
theorem blk2_2 (c : Dev nD) (t : Fin cfg2.N) (x k : S1x128.Idx)
    (hk0 : (k 0).val = (x 0).val) (hk1 : (k 1).val = (x 1).val) :
    (Gen.iblk2 V c 2 t : Vec Ideal S1x128 .f32) x = (V c main_v39 : S1x128.Idx → EReal) k := by
  obtain ⟨e0, e1⟩ := idx2_2 t
  unfold Gen.iblk2
  rw [View.read_apply]
  show (V c main_v39 : S1x128.Idx → EReal) _ = (V c main_v39 : S1x128.Idx → EReal) _
  congr 1
  funext a
  apply Fin.ext
  match a with
  | ⟨0, _⟩ => show win2_2.index t 0 * 1 + 1 * (x 0).val = (k 0).val; rw [e0, hk0]; omega
  | ⟨1, _⟩ => show win2_2.index t 1 * 128 + 1 * (x 1).val = (k 1).val; rw [e1, hk1]; omega

/-- The decoder's first weights: their block at every point is the whole array. -/
theorem blk2_3 (c : Dev nD) (t : Fin cfg2.N) (x k : S128x128.Idx)
    (hk0 : (k 0).val = (x 0).val) (hk1 : (k 1).val = (x 1).val) :
    (Gen.iblk2 V c 3 t : Vec Ideal S128x128 .f32) x = (V c main_arg6 : S128x128.Idx → EReal) k := by
  obtain ⟨e0, e1⟩ := idx2_3 t
  unfold Gen.iblk2
  rw [View.read_apply]
  show (V c main_arg6 : S128x128.Idx → EReal) _ = (V c main_arg6 : S128x128.Idx → EReal) _
  congr 1
  funext a
  apply Fin.ext
  match a with
  | ⟨0, _⟩ => show win2_3.index t 0 * 128 + 1 * (x 0).val = (k 0).val; rw [e0, hk0]; omega
  | ⟨1, _⟩ => show win2_3.index t 1 * 128 + 1 * (x 1).val = (k 1).val; rw [e1, hk1]; omega

/-- The decoder's first bias row: its block at every point is the whole row. -/
theorem blk2_4 (c : Dev nD) (t : Fin cfg2.N) (x k : S1x128.Idx)
    (hk0 : (k 0).val = (x 0).val) (hk1 : (k 1).val = (x 1).val) :
    (Gen.iblk2 V c 4 t : Vec Ideal S1x128 .f32) x = (V c main_v40 : S1x128.Idx → EReal) k := by
  obtain ⟨e0, e1⟩ := idx2_4 t
  unfold Gen.iblk2
  rw [View.read_apply]
  show (V c main_v40 : S1x128.Idx → EReal) _ = (V c main_v40 : S1x128.Idx → EReal) _
  congr 1
  funext a
  apply Fin.ext
  match a with
  | ⟨0, _⟩ => show win2_4.index t 0 * 1 + 1 * (x 0).val = (k 0).val; rw [e0, hk0]; omega
  | ⟨1, _⟩ => show win2_4.index t 1 * 128 + 1 * (x 1).val = (k 1).val; rw [e1, hk1]; omega

/-- The decoder's second weights: their block at every point is the whole array. -/
theorem blk2_5 (c : Dev nD) (t : Fin cfg2.N) (x k : S128x6.Idx)
    (hk0 : (k 0).val = (x 0).val) (hk1 : (k 1).val = (x 1).val) :
    (Gen.iblk2 V c 5 t : Vec Ideal S128x6 .f32) x = (V c main_arg8 : S128x6.Idx → EReal) k := by
  obtain ⟨e0, e1⟩ := idx2_5 t
  unfold Gen.iblk2
  rw [View.read_apply]
  show (V c main_arg8 : S128x6.Idx → EReal) _ = (V c main_arg8 : S128x6.Idx → EReal) _
  congr 1
  funext a
  apply Fin.ext
  match a with
  | ⟨0, _⟩ => show win2_5.index t 0 * 128 + 1 * (x 0).val = (k 0).val; rw [e0, hk0]; omega
  | ⟨1, _⟩ => show win2_5.index t 1 * 6 + 1 * (x 1).val = (k 1).val; rw [e1, hk1]; omega

/-- The decoder's second bias row: its block at every point is the whole row. -/
theorem blk2_6 (c : Dev nD) (t : Fin cfg2.N) (x k : S1x6.Idx)
    (hk0 : (k 0).val = (x 0).val) (hk1 : (k 1).val = (x 1).val) :
    (Gen.iblk2 V c 6 t : Vec Ideal S1x6 .f32) x = (V c main_v41 : S1x6.Idx → EReal) k := by
  obtain ⟨e0, e1⟩ := idx2_6 t
  unfold Gen.iblk2
  rw [View.read_apply]
  show (V c main_v41 : S1x6.Idx → EReal) _ = (V c main_v41 : S1x6.Idx → EReal) _
  congr 1
  funext a
  apply Fin.ext
  match a with
  | ⟨0, _⟩ => show win2_6.index t 0 * 1 + 1 * (x 0).val = (k 0).val; rw [e0, hk0]; omega
  | ⟨1, _⟩ => show win2_6.index t 1 * 6 + 1 * (x 1).val = (k 1).val; rw [e1, hk1]; omega

/-- WHAT POINT `t` WRITES BACK is block `t` of the stage's result: entry `(p, q)` of the block is entry
    `(5000·t + p, q)` of the array, and the body read rows `5000·t + p` of the table and of the scale there. -/
theorem flushed2 (c : Dev nD) (t : Fin cfg2.N) :
    (Gen.dat2 V c).flushed 7 t = ((cfg2.win 7).blk t).view.read (Elt Ideal) (G2 V c) := by
  show (cfg2.win 7).cut (grid2.coords t) ((Gen.dat2 V c).after 7 t) = _
  rw [Gen.after2_7]
  unfold Gen.out2_7
  rw [View.canon_unit_zero hz2]
  simp only [View.ld_unit_zero (S := S5000x1) hz2, View.ld_unit_zero (S := S5000x128) hz2, View.ld_unit_zero (S := S1x128) hz2,
    View.ld_unit_zero (S := S128x128) hz2, View.ld_unit_zero (S := S128x6) hz2, View.ld_unit_zero (S := S1x6) hz2]
  obtain ⟨e0, e1⟩ := idx2_7 t
  funext j
  obtain ⟨p, q, rfl⟩ : ∃ (p : Fin 5000) (q : Fin 6), j = ix2 p q := ⟨j 0, j 1, eq_ix2 j⟩
  show Gen.k2_pay1 (Gen.iblk2 V c 1 t) (Gen.iblk2 V c 0 t) (Gen.iblk2 V c 2 t) (Gen.iblk2 V c 3 t) (Gen.iblk2 V c 4 t)
      (Gen.iblk2 V c 5 t) (Gen.iblk2 V c 6 t) (ix2 p q)
    = G2 V c (((cfg2.win 7).blk t).view.emb (ix2 p q))
  refine (pay2 (Gen.iblk2 V c 1 t) (Gen.iblk2 V c 0 t) (Gen.iblk2 V c 2 t) (Gen.iblk2 V c 3 t) (Gen.iblk2 V c 4 t)
    (Gen.iblk2 V c 5 t) (Gen.iblk2 V c 6 t) p q).trans ?_
  have h0 : ((((cfg2.win 7).blk t).view.emb (ix2 p q) : S100000x6.Idx) 0).val = t.val * 5000 + p.val := by
    show win2_7.index t 0 * 5000 + 1 * p.val = _; rw [e0]; omega
  have h1 : ((((cfg2.win 7).blk t).view.emb (ix2 p q) : S100000x6.Idx) 1).val = q.val := by
    show win2_7.index t 1 * 6 + 1 * q.val = _; rw [e1]; omega
  refine congrArg₂ (· + ·) (Finset.sum_congr rfl fun k _ => congrArg₂ (· * ·)
    (congrArg₂ max (congrArg₂ (· + ·) (Finset.sum_congr rfl fun k' _ => congrArg₂ (· * ·)
      (congrArg₂ (· + ·) (congrArg₂ (· * ·) ?_ ?_) ?_) ?_) ?_) rfl) ?_) ?_
  · exact blk2_1 V c t (ix2 p (0 : Fin 1)) (ix2 ((((cfg2.win 7).blk t).view.emb (ix2 p q) : S100000x6.Idx) 0) (0 : Fin 1)) h0 rfl
  · exact blk2_0 V c t (ix2 p k') (ix2 ((((cfg2.win 7).blk t).view.emb (ix2 p q) : S100000x6.Idx) 0) k') h0 rfl
  · exact blk2_2 V c t (ix2 (0 : Fin 1) k') (ix2 (0 : Fin 1) k') rfl rfl
  · exact blk2_3 V c t (ix2 k' k) (ix2 k' k) rfl rfl
  · exact blk2_4 V c t (ix2 (0 : Fin 1) k) (ix2 (0 : Fin 1) k) rfl rfl
  · exact blk2_5 V c t (ix2 k q) (ix2 k ((((cfg2.win 7).blk t).view.emb (ix2 p q) : S100000x6.Idx) 1)) rfl h1
  · exact blk2_6 V c t (ix2 (0 : Fin 1) q) (ix2 (0 : Fin 1) ((((cfg2.win 7).blk t).view.emb (ix2 p q) : S100000x6.Idx) 1)) rfl h1

/-- An index of the array is in point `t`'s block iff each coordinate is in the block's range on its axis. -/
theorem mem_blk2 (t : Fin cfg2.N) (i : S100000x6.Idx) :
    i ∈ ((cfg2.win 7).blk t).view.set ↔ ∀ a : Fin 2, win2_7.index t a * S5000x6.size a ≤ (i a).val ∧ (i a).val < win2_7.index t a * S5000x6.size a + S5000x6.size a := by
  show i ∈ ((View.whole main_v42).slice (win2_7.rect t)).set ↔ _
  rw [View.set_slice_whole, Rect.mem_set_unit]
  exact Iff.rfl

/-- The twenty blocks tile the array: row `r` is in the block of point `r / 5000`. -/
theorem cover2 (i : S100000x6.Idx) : ∃ t : Fin cfg2.N, (cfg2.win 7).flush t = true ∧ i ∈ ((cfg2.win 7).blk t).view.set := by
  have hi0 : (i 0).val < 100000 := (i 0).isLt
  have hi1 : (i 1).val < 6 := (i 1).isLt
  have hN : cfg2.N = 20 := Gen.N_2
  have ht : (i 0).val / 5000 < cfg2.N := by rw [hN]; omega
  obtain ⟨e0, e1⟩ := idx2_7 ⟨(i 0).val / 5000, ht⟩
  have e0' : win2_7.index ⟨(i 0).val / 5000, ht⟩ (0 : Fin 2) = (i 0).val / 5000 := e0
  refine ⟨⟨(i 0).val / 5000, ht⟩, Gen.flush2_7 _, ?_⟩
  rw [mem_blk2]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e0']; omega
  | ⟨1, _⟩ =>
    show win2_7.index ⟨(i 0).val / 5000, ht⟩ (1 : Fin 2) * 6 ≤ (i 1).val ∧ (i 1).val < win2_7.index ⟨(i 0).val / 5000, ht⟩ (1 : Fin 2) * 6 + 6
    rw [e1]; omega

/-- THE ARRAY AFTER THE REGION: the stage's result, entry by entry. -/
theorem region2_arr (c : Dev nD) : (Gen.dat2 V c).arrAt 7 cfg2.N = G2 V c :=
  (Gen.dat2 V c).arrAt_eq_of_cover 7 (G2 V c) (fun t _ => flushed2 V c t) cover2

/-- The written-out function is stage 2 of the specification, read as an array: the definitions unfold to it. -/
theorem G2f_eq (Zp : S100000x128.Idx → EReal) (D : S100000x1.Idx → EReal) (B2 : S1x128.Idx → EReal) (F1 : S128x128.Idx → EReal)
    (C1 : S1x128.Idx → EReal) (F2 : S128x6.Idx → EReal) (C2 : S1x6.Idx → EReal) :
    G2f Zp D B2 F1 C1 F2 C2 = Spec.asArr (Spec.stage2 Zp D B2 F1 C1 F2 C2) := rfl

/-- REGION 2's OUTPUT ARRAY is stage 2 of the arrays the region finds. -/
theorem region2 (c : Dev nD) :
    (Gen.dat2 V c).arrAt 7 cfg2.N
      = Spec.asArr (Spec.stage2 (V c main_v38) (V c main_v15) (V c main_v39) (V c main_arg6) (V c main_v40) (V c main_arg8)
          (V c main_v41)) :=
  (region2_arr V c).trans (G2f_eq _ _ _ _ _ _ _)

end

end Cert.KernelIdeal.Regions

end
-- ==== Proof.Compose.lean ====
/-
  THE THREE STAGES, CHAINED THROUGH THE TWO AGGREGATIONS, ARE THE SCALED FORM.

  Stage 0 produces the first table; its rows landing on each node are summed (the first aggregation); stage 1 turns the
  sums into the second table; that is aggregated again; stage 2 is the second layer's affine step and the decoder. The
  stages take the scale as a column and the biases as rows of one line; read at their one line these are the scale
  vector and the bias vectors of the scaled form, and then the chain unfolds to it term by term.
-/
import proofs.«137930_j50749333569689_2_alg».proof.Proof.Spec

noncomputable section

open scoped BigOperators

namespace Cert.Spec

open Idealize.ShloMosaic Idealize.ShloMosaic.ValueIdx

variable (dstcol srcw : (⟨2, ![1700000, 1]⟩ : Shape).Idx → BitVec 32) (dinv : (⟨1, ![100000]⟩ : Shape).Idx → EReal)
  (X : (⟨2, ![100000, 6]⟩ : Shape).Idx → EReal) (W1 : (⟨2, ![6, 128]⟩ : Shape).Idx → EReal)
  (b1 : (⟨1, ![128]⟩ : Shape).Idx → EReal) (W2 : (⟨2, ![128, 128]⟩ : Shape).Idx → EReal)
  (b2 : (⟨1, ![128]⟩ : Shape).Idx → EReal) (F1 : (⟨2, ![128, 128]⟩ : Shape).Idx → EReal)
  (c1 : (⟨1, ![128]⟩ : Shape).Idx → EReal) (F2 : (⟨2, ![128, 6]⟩ : Shape).Idx → EReal)
  (c2 : (⟨1, ![6]⟩ : Shape).Idx → EReal)
  (D : (⟨2, ![100000, 1]⟩ : Shape).Idx → EReal) (B1 B2 C1 : (⟨2, ![1, 128]⟩ : Shape).Idx → EReal)
  (C2 : (⟨2, ![1, 6]⟩ : Shape).Idx → EReal) (Hp Zp : (⟨2, ![100000, 128]⟩ : Shape).Idx → EReal)

/-- The chain of the three stages is the scaled form, given the column and the one-line rows read at their line and
    the two aggregated arrays read at an index. -/
theorem stages_eq_kerOut (hD : ∀ r : Fin 100000, D (ix2 r (0 : Fin 1)) = dinv (ix1 r))
    (hB1 : ∀ k : Fin 128, B1 (ix2 (0 : Fin 1) k) = b1 (ix1 k)) (hB2 : ∀ k : Fin 128, B2 (ix2 (0 : Fin 1) k) = b2 (ix1 k))
    (hC1 : ∀ k : Fin 128, C1 (ix2 (0 : Fin 1) k) = c1 (ix1 k)) (hC2 : ∀ k : Fin 6, C2 (ix2 (0 : Fin 1) k) = c2 (ix1 k))
    (hHp : ∀ (n : Fin 100000) (c : Fin 128), Hp (ix2 n c) = aggK dstcol srcw (stage0 X W1 D) n c)
    (hZp : ∀ (n : Fin 100000) (c : Fin 128), Zp (ix2 n c) = aggK dstcol srcw (stage1 Hp D B1 W2) n c) :
    stage2 Zp D B2 F1 C1 F2 C2 = kerOut dstcol srcw dinv X W1 b1 W2 b2 F1 c1 F2 c2 := by
  have h0 : stage0 X W1 D = kT1 dinv X W1 := by
    funext r q; unfold stage0 kT1; rw [hD]
  have h1 : stage1 Hp D B1 W2 = kT2 dstcol srcw dinv X W1 b1 W2 := by
    funext r q
    unfold stage1 kT2 kH mmf
    simp only [hD, hHp, hB1, h0]
  funext r q
  unfold stage2 kerOut dec kZ mmf
  simp only [hD, hZp, hB2, hC1, hC2, h1]

end Cert.Spec

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.Aggregate.lean ====
/-
  A ROW SCATTER-ADD OF A ROW GATHER, READ AT AN INDEX.

  Gathering the rows of a table `T` at the edges' clamped start words and adding the gathered rows onto a zero array at
  the edges' destination words gives, at node `n` and column `c`, zero plus the sum of `T (row e, c)` over the edges `e`
  landing on `n`: the aggregation `aggK`.
-/
import proofs.«137930_j50749333569689_2_alg».proof.Proof.Spec
import proofs.«137930_j50749333569689_2_alg».proof.Proof.LibScatterGather

noncomputable section

open scoped BigOperators

namespace Cert.Spec

open Idealize.ShloMosaic Idealize.ShloMosaic.ValueIdx Cert.Lib.ScatterGather

/-- The scatter-add onto zero of the gathered rows of `T` is the aggregation of `T`'s rows. -/
theorem scatter_gather_apply
    (wfS : ScatterDims.WF ⟨2, ![100000, 128]⟩ ⟨2, ![1700000, 1]⟩ ⟨2, ![1700000, 128]⟩ [1] [0] [0] 1)
    (wfG : GatherDims.WF ⟨2, ![100000, 128]⟩ ⟨2, ![1700000, 1]⟩ ⟨2, ![1700000, 128]⟩ [1] [0] [] [0] [] 1 ![1, 128])
    (Z : FVec Ideal ⟨2, ![100000, 128]⟩ .f32) (hZ : ∀ i, Z i = 0)
    (T : FVec Ideal ⟨2, ![100000, 128]⟩ .f32) (dstcol srcw : IVec ⟨2, ![1700000, 1]⟩ 32) (n : Fin 100000) (c : Fin 128) :
    Host.scatterAdd (rowScatterDims 100000 1700000 128 wfS) Z dstcol
        (Host.gather (rowGatherDims 100000 1700000 128 wfG) T srcw) (ix2 n c)
      = aggK dstcol srcw (rows T) n c := by
  rw [scatterAdd_rows_apply wfS Z dstcol _ n c, hZ]
  unfold aggK land
  refine congrArg (fun t => (0 : EReal) + t) ?_
  refine Finset.sum_congr rfl fun e _ => ?_
  rw [gather_rows_apply (by decide) wfG T srcw e c]
  rfl

end Cert.Spec

end
-- ==== Proof.Layout.lean ====
/-
  A vector of `a` entries laid out as a column `[a, 1]` and as a row `[1, a]`: both layouts keep the row-major
  position of every entry, so the column at `(r, 0)` and the row at `(0, k)` read the vector at `r` and at `k`.
-/
import Idealize.ShloMosaic.Lib.Pipeline.Value
import Idealize.ShloMosaic.Lib.ValueLayout
import Idealize.ShloMosaic.Lib.ValueIdx

namespace Cert.Layout

open Idealize.ShloMosaic Idealize.ShloMosaic.ValueIdx

/-- A vector cast to a column reads, at `(r, 0)`, the vector at `r`: position `r · 1 + 0 = r`. -/
theorem col_apply {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    rw [Nat.mul_one, Nat.add_zero])

/-- A vector cast to a row reads, at `(0, k)`, the vector at `k`: position `0 · a + k = k`. -/
theorem row_apply {α : Type} {a : ℕ} (x : (⟨1, ![a]⟩ : Shape).Idx → α)
    (h : (⟨1, ![a]⟩ : Shape).ShapeCasts ⟨2, ![1, a]⟩) (k : Fin a) :
    shapeCast ⟨2, ![1, a]⟩ x h (ix2 (0 : Fin 1) k) = x (ix1 k) :=
  shapeCast_a_1a_apply x h (0 : Fin 1) k

end Cert.Layout
-- ==== Proof.KernelValue.lean ====
/-
  THE KERNEL PROGRAM'S RESULT ARRAY IS THE SCALED FORM.

  Read backwards from the result, the program's buffers are: region 2's output array, entered with the second
  aggregated array, the scale column, three bias rows and two weight matrices; the second aggregated array is the
  scatter-add onto zero, at the destination words, of the rows of region 1's output gathered at the source words; region 1
  is entered with the first aggregated array, the scale column, the first bias row and the second weights; the first
  aggregated array is the same scatter-add of gathered rows of region 0's output; region 0 is entered with the node
  features, the first weights and the scale column. Each region's output array is its stage of the arrays it finds,
  a scatter-add onto zero of gathered rows is the aggregation of the table's rows, and a vector laid out as a column or
  as a row of one line reads the vector at its line: so the chain is the three stages through two aggregations, which
  is the scaled form.
-/
import proofs.«137930_j50749333569689_2_alg».proof.Proof.KernelFold
import proofs.«137930_j50749333569689_2_alg».proof.Proof.Region0
import proofs.«137930_j50749333569689_2_alg».proof.Proof.Region1
import proofs.«137930_j50749333569689_2_alg».proof.Proof.Region2
import proofs.«137930_j50749333569689_2_alg».proof.Proof.Compose
import proofs.«137930_j50749333569689_2_alg».proof.Proof.Aggregate
import proofs.«137930_j50749333569689_2_alg».proof.Proof.Layout
import proofs.«137930_j50749333569689_2_alg».proof.Proof.LibScatterGather
import proofs.«137930_j50749333569689_2_alg».proof.Proof.Spec
import proofs.«137930_j50749333569689_2_alg».proof.Proof.ReadP
import Idealize.ShloMosaic.Lib.IdealHost

noncomputable section

open scoped BigOperators

namespace Cert.KernelIdeal.KValue

open Cert.KernelIdeal Idealize.ShloMosaic Idealize.ShloMosaic.TcCoe Idealize.ShloMosaic.ValueIdx Idealize.SL.Sem
open Idealize.ShloMosaic.StableHlo
open Cert.ReferenceIdeal.Read (val_main_v15 val_main_v36 val_main_v42)

/-! ## The aggregation the program's scatter and gather compute -/

/-- The program's row scatter has the generic row-scatter dimension numbers at the literal sizes. -/
theorem scatter_rec : scatter_S100000x128_S1700000x1_S1700000x128_1_0_0_1
    = Cert.Lib.ScatterGather.rowScatterDims 100000 1700000 128 Gen.scatter_S100000x128_S1700000x1_S1700000x128_1_0_0_1_wf := rfl

/-- The program's row gather has the generic row-gather dimension numbers at the literal sizes. -/
theorem gather_rec : gather_S100000x128_S1700000x1_S1700000x128_1_0_n_n_0_1_1128
    = Cert.Lib.ScatterGather.rowGatherDims 100000 1700000 128 Gen.gather_S100000x128_S1700000x1_S1700000x128_1_0_n_n_0_1_1128_wf := rfl

/-- The array the scatter adds onto, a broadcast of the zero word, is zero everywhere. -/
theorem zero_apply (h : S_.BroadcastsInDim S100000x128 ![]) (i : S100000x128.Idx) :
    broadcastInDim S100000x128 ![] h (constant (F := Ideal) S_ .f32 0x00000000#32) i = 0 :=
  (broadcastInDim_scalar_apply h _ i).trans Ideal.ofBits_zero_f32

/-- THE AGGREGATION: the scatter-add onto zero, at the destination words, of the rows of a table gathered at the
    source words reads, at node `n` and column `q`, the sum of the table's rows landing on `n`. -/
theorem agg_apply (h : S_.BroadcastsInDim S100000x128 ![]) (f : Fin 100000 → Fin 128 → EReal)
    (dst src : IVec S1700000x1 32) (n : Fin 100000) (q : Fin 128) :
    Host.scatterAdd scatter_S100000x128_S1700000x1_S1700000x128_1_0_0_1 (broadcastInDim S100000x128 ![] h (constant (F := Ideal) S_ .f32 0x00000000#32)) dst
        (Host.gather gather_S100000x128_S1700000x1_S1700000x128_1_0_n_n_0_1_1128 (Spec.asArr f : FVec Ideal S100000x128 .f32) src) (ix2 n q)
      = Spec.aggK dst src f n q := by
  rw [scatter_rec, gather_rec]
  exact Spec.scatter_gather_apply _ _ _ (zero_apply h) (Spec.asArr f) dst src n q

/-! ## The arrays the regions find, named -/

section
variable (m : (ℓ : Loc nD τ sig) → Buf (Elt Ideal) ℓ) (ρ : Dev nD → PrngReg) (c : Dev nD)

/-- The destination words, the source words and the degree scale: the reference's stages of the edge array. -/
abbrev dstw : S1700000x1.Idx → BitVec 32 := val_main_v42 (F := Ideal) (m ((c : Thread nD τ).loc main_arg1))
abbrev srcw : S1700000x1.Idx → BitVec 32 := val_main_v36 (F := Ideal) (m ((c : Thread nD τ).loc main_arg1))
abbrev dinv : S100000.Idx → EReal := val_main_v15 (F := Ideal) (m ((c : Thread nD τ).loc main_arg1))

/-- The scale as a column, and the four biases as rows of one line. -/
abbrev Dcol : S100000x1.Idx → EReal := shapeCast S100000x1 (val_main_v15 (F := Ideal) (m ((c : Thread nD τ).loc main_arg1))) Gen.shapeCasts_S100000_S100000x1
abbrev B1 : S1x128.Idx → EReal := shapeCast S1x128 (m ((c : Thread nD τ).loc main_arg3)) Gen.shapeCasts_S128_S1x128
abbrev B2 : S1x128.Idx → EReal := shapeCast S1x128 (m ((c : Thread nD τ).loc main_arg5)) Gen.shapeCasts_S128_S1x128
abbrev C1 : S1x128.Idx → EReal := shapeCast S1x128 (m ((c : Thread nD τ).loc main_arg7)) Gen.shapeCasts_S128_S1x128
abbrev C2 : S1x6.Idx → EReal := shapeCast S1x6 (m ((c : Thread nD τ).loc main_arg9)) Gen.shapeCasts_S6_S1x6

/-- The array a scatter adds onto. -/
abbrev Zero : FVec Ideal S100000x128 .f32 :=
  broadcastInDim S100000x128 ![] Gen.bcast_S_S100000x128 (constant (F := Ideal) S_ .f32 0x00000000#32)

/-- The first table, the first aggregated array, the second table, the second aggregated array. -/
def T1 : FVec Ideal S100000x128 .f32 := Spec.asArr (Spec.stage0 (m ((c : Thread nD τ).loc main_arg0)) (m ((c : Thread nD τ).loc main_arg2)) (Dcol m c))
def Hp : FVec Ideal S100000x128 .f32 := Host.scatterAdd scatter_S100000x128_S1700000x1_S1700000x128_1_0_0_1 Zero (dstw m c) (Host.gather gather_S100000x128_S1700000x1_S1700000x128_1_0_n_n_0_1_1128 (T1 m c) (srcw m c))
def T2 : FVec Ideal S100000x128 .f32 := Spec.asArr (Spec.stage1 (Hp m c) (Dcol m c) (B1 m c) (m ((c : Thread nD τ).loc main_arg4)))
def Zp : FVec Ideal S100000x128 .f32 := Host.scatterAdd scatter_S100000x128_S1700000x1_S1700000x128_1_0_0_1 Zero (dstw m c) (Host.gather gather_S100000x128_S1700000x1_S1700000x128_1_0_n_n_0_1_1128 (T2 m c) (srcw m c))

/-! ## The program's buffers, boundary by boundary -/

/-- Region 0's output array is the first table. -/
theorem T1_eq : (Gen.dat0 (Gen.V3 m ρ) c).arrAt 3 cfg0.N = T1 m c := by
  rw [Regions.region0 (Gen.V3 m ρ) c,
    show Gen.V3 m ρ c main_arg0 = _ from Fold.W3_arg0 m ρ c,
    show Gen.V3 m ρ c main_arg2 = _ from Fold.W3_arg2 m ρ c,
    show Gen.V3 m ρ c main_v15 = _ from Fold.W3_v15 m ρ c]
  rfl

/-- Region 1 finds the first aggregated array. -/
theorem Hp_eq : Gen.W5 m ρ c (Proc.devRef .tc main_v26) = Hp m c := by
  rw [Fold.W5_v26, T1_eq]
  rfl

/-- Region 1's output array is the second table. -/
theorem T2_eq : (Gen.dat1 (Gen.V5 m ρ) c).arrAt 4 cfg1.N = T2 m c := by
  rw [Regions.region1 (Gen.V5 m ρ) c,
    show Gen.V5 m ρ c main_v26 = _ from Hp_eq m ρ c,
    show Gen.V5 m ρ c main_v15 = _ from (Fold.W5_v15 m ρ c).trans (Fold.W3_v15 m ρ c),
    show Gen.V5 m ρ c main_v27 = _ from Fold.W5_v27 m ρ c,
    show Gen.V5 m ρ c main_arg4 = _ from Fold.W5_arg4 m ρ c]
  rfl

/-- Region 2 finds the second aggregated array. -/
theorem Zp_eq : Gen.W7 m ρ c (Proc.devRef .tc main_v38) = Zp m c := by
  rw [Fold.W7_v38, T2_eq]
  rfl

/-- The result array is stage 2 of what region 2 finds. -/
theorem out_stage2 : Gen.W8 m ρ c (Proc.devRef .tc main_v42)
    = Spec.asArr (Spec.stage2 (Zp m c) (Dcol m c) (B2 m c) (m ((c : Thread nD τ).loc main_arg6)) (C1 m c) (m ((c : Thread nD τ).loc main_arg8)) (C2 m c)) := by
  rw [Fold.W8_v42, Regions.region2 (Gen.V7 m ρ) c,
    show Gen.V7 m ρ c main_v38 = _ from Zp_eq m ρ c,
    show Gen.V7 m ρ c main_v15 = _ from (Fold.W7_v15 m ρ c).trans (Fold.W3_v15 m ρ c),
    show Gen.V7 m ρ c main_v39 = _ from Fold.W7_v39 m ρ c,
    show Gen.V7 m ρ c main_arg6 = _ from Fold.W7_arg6 m ρ c,
    show Gen.V7 m ρ c main_v40 = _ from Fold.W7_v40 m ρ c,
    show Gen.V7 m ρ c main_arg8 = _ from Fold.W7_arg8 m ρ c,
    show Gen.V7 m ρ c main_v41 = _ from Fold.W7_v41 m ρ c]

/-! ## The chain is the scaled form -/

/-- The first aggregated array, read at node `n` and column `q`: the first table's rows landing on `n`, summed. -/
theorem Hp_apply (n : Fin 100000) (q : Fin 128) :
    Hp m c (ix2 n q)
      = Spec.aggK (dstw m c) (srcw m c) (Spec.stage0 (m ((c : Thread nD τ).loc main_arg0)) (m ((c : Thread nD τ).loc main_arg2)) (Dcol m c)) n q := by
  unfold Hp T1
  exact agg_apply Gen.bcast_S_S100000x128 (Spec.stage0 (m ((c : Thread nD τ).loc main_arg0)) (m ((c : Thread nD τ).loc main_arg2)) (Dcol m c)) (dstw m c) (srcw m c) n q

/-- The second aggregated array, read at node `n` and column `q`: the second table's rows landing on `n`, summed. -/
theorem Zp_apply (n : Fin 100000) (q : Fin 128) :
    Zp m c (ix2 n q)
      = Spec.aggK (dstw m c) (srcw m c) (Spec.stage1 (Hp m c) (Dcol m c) (B1 m c) (m ((c : Thread nD τ).loc main_arg4))) n q := by
  unfold Zp T2
  exact agg_apply Gen.bcast_S_S100000x128 (Spec.stage1 (Hp m c) (Dcol m c) (B1 m c) (m ((c : Thread nD τ).loc main_arg4))) (dstw m c) (srcw m c) n q

/-- THE RESULT ARRAY of the kernel program is the scaled form of the graph convolution and the decoder, of the
    program's arguments and of the edge array's destination words, source words and degree scale. -/
theorem out_eq : Gen.W8 m ρ c (Proc.devRef .tc main_v42)
    = Spec.asArr (Spec.kerOut (val_main_v42 (F := Ideal) (m ((c : Thread nD τ).loc main_arg1))) (val_main_v36 (F := Ideal) (m ((c : Thread nD τ).loc main_arg1)))
        (val_main_v15 (F := Ideal) (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))) := by
  refine (out_stage2 m ρ c).trans (congrArg Spec.asArr ?_)
  refine Spec.stages_eq_kerOut (dstw m c) (srcw m c) (dinv m c) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (Dcol m c) (B1 m c) (B2 m c) (C1 m c) (C2 m c) (Hp m c) (Zp m c) ?_ ?_ ?_ ?_ ?_ ?_ ?_
  · exact fun r => Cert.Layout.col_apply _ _ r
  · exact fun k => Cert.Layout.row_apply _ _ k
  · exact fun k => Cert.Layout.row_apply _ _ k
  · exact fun k => Cert.Layout.row_apply _ _ k
  · exact fun k => Cert.Layout.row_apply _ _ k
  · exact Hp_apply m c
  · exact Zp_apply m c

end

end Cert.KernelIdeal.KValue

end
-- ==== Proof.RefFold.lean ====
/-
  What the reference's list of operations leaves at the result buffer.

  The run of the reference states its result as a fold: the device's buffer contents after the 127 operations, in order,
  from the launch contents, read at the result buffer. Each operation rewrites the buffer it writes to its function of the
  contents of the buffers it reads and leaves every other buffer alone, so the fold at the result buffer is the
  composition of the operations' functions along the data flow, applied to the ten arguments: the last stage of the
  reference read as a chain of stages.

  The composition is taken in pieces. The list is cut where few buffers are still to be read: after the first seven
  operations (the row index, the two rows of the edge array sliced and reshaped, and the two joined index vectors, source
  and destination, each followed by the self-loops), and then at the first matrix product with the degree test and its
  reciprocal root, the scale, the first layer before and after its rectifier, the second matrix product with the second
  copy of the degree test, the second copy of the scale, the second layer with the decoder's first product, the decoder's
  rectifier, and the result. For each piece, over ANY valuation of the buffers, two things are shown: the buffer it
  produces holds the stage of that name when the buffers it reads hold theirs, and the buffers still to be read later
  are not written. The four pieces that are bodies of called functions (the two choices `where`, the two rectifiers) move
  values between a buffer's type and the value's type along an equation that is the identity; there the inputs are taken
  as arbitrary arrays first, so that removing the identity transport never opens an input.

  The pieces are then chained: the valuation after each piece is replaced by a variable that keeps only the facts just
  shown, and the next piece is applied to it.
-/
import proofs.«137930_j50749333569689_2_alg».proof.Proof.RunP
import proofs.«137930_j50749333569689_2_alg».proof.Proof.ReadP

noncomputable section

namespace Cert.ReferenceIdeal.RefFold

open Cert.ReferenceIdeal Cert.ReferenceIdeal.Gen Idealize.ShloMosaic Idealize.ShloMosaic.TcCoe Idealize.SL.Sem Idealize.ShloMosaic.StableHlo

/-- Folding a concatenation of two lists of operations is folding the second over the result of the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## The first seven operations -/

section Head

variable (m : (ℓ : Loc nD τ sig) → Buf (Elt Ideal) ℓ) (c : Dev nD)

/-- The joined source vector after the head is its stage. -/
theorem head_v3 :
    after (List.take 7 (Value.ops (F := Ideal))) (launchContents m c) (Proc.devRef .tc main_v3)
      = Read.val_main_v3 (F := Ideal) (m ((c.tc : Thread nD τ).loc main_arg1)) := by
  simp only [Value.ops, List.take_succ_cons, List.take_zero]
  after_results
  rfl

/-- The joined destination vector after the head is its stage. -/
theorem head_v6 :
    after (List.take 7 (Value.ops (F := Ideal))) (launchContents m c) (Proc.devRef .tc main_v6)
      = Read.val_main_v6 (F := Ideal) (m ((c.tc : Thread nD τ).loc main_arg1)) := by
  simp only [Value.ops, List.take_succ_cons, List.take_zero]
  after_results
  rfl

/-- The head writes none of the ten arguments. -/
theorem head_arg0 :
    after (List.take 7 (Value.ops (F := Ideal))) (launchContents m c) (Proc.devRef .tc main_arg0)
      = m ((c.tc : Thread nD τ).loc main_arg0) := by
  simp only [Value.ops, List.take_succ_cons, List.take_zero]
  after_results

theorem head_arg1 :
    after (List.take 7 (Value.ops (F := Ideal))) (launchContents m c) (Proc.devRef .tc main_arg1)
      = m ((c.tc : Thread nD τ).loc main_arg1) := by
  simp only [Value.ops, List.take_succ_cons, List.take_zero]
  after_results

theorem head_arg2 :
    after (List.take 7 (Value.ops (F := Ideal))) (launchContents m c) (Proc.devRef .tc main_arg2)
      = m ((c.tc : Thread nD τ).loc main_arg2) := by
  simp only [Value.ops, List.take_succ_cons, List.take_zero]
  after_results

theorem head_arg3 :
    after (List.take 7 (Value.ops (F := Ideal))) (launchContents m c) (Proc.devRef .tc main_arg3)
      = m ((c.tc : Thread nD τ).loc main_arg3) := by
  simp only [Value.ops, List.take_succ_cons, List.take_zero]
  after_results

theorem head_arg4 :
    after (List.take 7 (Value.ops (F := Ideal))) (launchContents m c) (Proc.devRef .tc main_arg4)
      = m ((c.tc : Thread nD τ).loc main_arg4) := by
  simp only [Value.ops, List.take_succ_cons, List.take_zero]
  after_results

theorem head_arg5 :
    after (List.take 7 (Value.ops (F := Ideal))) (launchContents m c) (Proc.devRef .tc main_arg5)
      = m ((c.tc : Thread nD τ).loc main_arg5) := by
  simp only [Value.ops, List.take_succ_cons, List.take_zero]
  after_results

theorem head_arg6 :
    after (List.take 7 (Value.ops (F := Ideal))) (launchContents m c) (Proc.devRef .tc main_arg6)
      = m ((c.tc : Thread nD τ).loc main_arg6) := by
  simp only [Value.ops, List.take_succ_cons, List.take_zero]
  after_results

theorem head_arg7 :
    after (List.take 7 (Value.ops (F := Ideal))) (launchContents m c) (Proc.devRef .tc main_arg7)
      = m ((c.tc : Thread nD τ).loc main_arg7) := by
  simp only [Value.ops, List.take_succ_cons, List.take_zero]
  after_results

theorem head_arg8 :
    after (List.take 7 (Value.ops (F := Ideal))) (launchContents m c) (Proc.devRef .tc main_arg8)
      = m ((c.tc : Thread nD τ).loc main_arg8) := by
  simp only [Value.ops, List.take_succ_cons, List.take_zero]
  after_results

theorem head_arg9 :
    after (List.take 7 (Value.ops (F := Ideal))) (launchContents m c) (Proc.devRef .tc main_arg9)
      = m ((c.tc : Thread nD τ).loc main_arg9) := by
  simp only [Value.ops, List.take_succ_cons, List.take_zero]
  after_results

end Head

/-- Folding a list from position `a` on is folding its next `n` operations and then the list from position `a + n` on. -/
theorem peel {Val : EltTy → Type} (l : List (HloOp τ sig Val)) (a n b : Nat) (h : a + n = b) (V : Valuation τ sig Val) :
    after (l.drop a) V = after (l.drop b) (after ((l.drop a).take n) V) := by
  subst h
  rw [← List.drop_drop (i := n) (j := a) (l := l), ← after_append, List.take_append_drop]

/-! ## The segments: what each produces from named inputs, over any valuation, and what it leaves alone -/

set_option maxRecDepth 8192 in
set_option maxHeartbeats 4000000 in
/-- The first matrix product, from the two arguments it reads. -/
theorem segA_v7 (V : Valuation τ sig (Elt Ideal)) (x0 : (⟨S100000x6, .f32⟩ : BufTy).Contents (Elt Ideal)) (x2 : (⟨S6x128, .f32⟩ : BufTy).Contents (Elt Ideal))
    (h_arg0 : V (Proc.devRef .tc main_arg0) = x0)
    (h_arg2 : V (Proc.devRef .tc main_arg2) = x2) :
    after (((Value.ops (F := Ideal)).drop 7).take 11) V (Proc.devRef .tc main_v7) = Read.val_main_v7 (F := Ideal) x0 x2 := by
  simp only [Value.ops, List.drop_succ_cons, List.drop_zero, List.take_succ_cons, List.take_zero]
  after_results_simp
  simp only [h_arg0, h_arg2]
  first | rfl | done

set_option maxRecDepth 8192 in
set_option maxHeartbeats 4000000 in
/-- The test `deg > 0`, from the joined destination vector. -/
theorem segA_v13 (V : Valuation τ sig (Elt Ideal)) (x1 : (⟨S2x1600000, .i32⟩ : BufTy).Contents (Elt Ideal))
    (h_v6 : V (Proc.devRef .tc main_v6) = Read.val_main_v6 (F := Ideal) x1) :
    after (((Value.ops (F := Ideal)).drop 7).take 11) V (Proc.devRef .tc main_v13) = Read.val_main_v13 (F := Ideal) x1 := by
  simp only [Value.ops, List.drop_succ_cons, List.drop_zero, List.take_succ_cons, List.take_zero]
  after_results_simp
  simp only [h_v6]
  first | rfl | done

set_option maxRecDepth 8192 in
set_option maxHeartbeats 4000000 in
/-- The reciprocal root of the degree, from the joined destination vector. -/
theorem segA_v14 (V : Valuation τ sig (Elt Ideal)) (x1 : (⟨S2x1600000, .i32⟩ : BufTy).Contents (Elt Ideal))
    (h_v6 : V (Proc.devRef .tc main_v6) = Read.val_main_v6 (F := Ideal) x1) :
    after (((Value.ops (F := Ideal)).drop 7).take 11) V (Proc.devRef .tc main_v14) = Read.val_main_v14 (F := Ideal) x1 := by
  simp only [Value.ops, List.drop_succ_cons, List.drop_zero, List.take_succ_cons, List.take_zero]
  after_results_simp
  simp only [h_v6]
  first | rfl | done

set_option maxRecDepth 8192 in
set_option maxHeartbeats 4000000 in
/-- These operations write none of the buffers still to be read. -/
theorem segA_keep (V : Valuation τ sig (Elt Ideal)) :
    after (((Value.ops (F := Ideal)).drop 7).take 11) V (Proc.devRef .tc main_v3) = V (Proc.devRef .tc main_v3)
    ∧ after (((Value.ops (F := Ideal)).drop 7).take 11) V (Proc.devRef .tc main_v6) = V (Proc.devRef .tc main_v6)
    ∧ after (((Value.ops (F := Ideal)).drop 7).take 11) V (Proc.devRef .tc main_arg3) = V (Proc.devRef .tc main_arg3)
    ∧ after (((Value.ops (F := Ideal)).drop 7).take 11) V (Proc.devRef .tc main_arg4) = V (Proc.devRef .tc main_arg4)
    ∧ after (((Value.ops (F := Ideal)).drop 7).take 11) V (Proc.devRef .tc main_arg5) = V (Proc.devRef .tc main_arg5)
    ∧ after (((Value.ops (F := Ideal)).drop 7).take 11) V (Proc.devRef .tc main_arg6) = V (Proc.devRef .tc main_arg6)
    ∧ after (((Value.ops (F := Ideal)).drop 7).take 11) V (Proc.devRef .tc main_arg7) = V (Proc.devRef .tc main_arg7)
    ∧ after (((Value.ops (F := Ideal)).drop 7).take 11) V (Proc.devRef .tc main_arg8) = V (Proc.devRef .tc main_arg8)
    ∧ after (((Value.ops (F := Ideal)).drop 7).take 11) V (Proc.devRef .tc main_arg9) = V (Proc.devRef .tc main_arg9) := by
  simp only [Value.ops, List.drop_succ_cons, List.drop_zero, List.take_succ_cons, List.take_zero]
  refine ⟨?_, ?_, ?_, ?_, ?_, ?_, ?_, ?_, ?_⟩ <;> (after_results_simp <;> first | done | rfl)

set_option maxRecDepth 8192 in
set_option maxHeartbeats 4000000 in
/-- The scale: the choice between the reciprocal root and the zero word. Over arbitrary inputs: the typed references of the called function carry the identity transport. -/
theorem segW_raw (V : Valuation τ sig (Elt Ideal)) (A0 : (⟨S100000, .i1⟩ : BufTy).Contents (Elt Ideal)) (A1 : (⟨S100000, .f32⟩ : BufTy).Contents (Elt Ideal))
    (h0 : V (Proc.devRef .tc main_v13) = A0) (h1 : V (Proc.devRef .tc main_v14) = A1) :
    after (((Value.ops (F := Ideal)).drop 18).take 4) V (Proc.devRef .tc main_v15) = select A0 A1 (broadcastInDim S100000 ![] bcast_S_S100000 (id (constant (F := Ideal) S_ .f32 0x00000000#32))) := by
  simp only [Value.ops, List.drop_succ_cons, List.drop_zero, List.take_succ_cons, List.take_zero]
  after_results_simp
  simp only [h0, h1]
  first | rfl | done

/-- The same choice of stages is the stage. -/
theorem segW_stage (x1 : (⟨S2x1600000, .i32⟩ : BufTy).Contents (Elt Ideal)) :
    select (Read.val_main_v13 (F := Ideal) x1) (Read.val_main_v14 (F := Ideal) x1) (broadcastInDim S100000 ![] bcast_S_S100000 (id (constant (F := Ideal) S_ .f32 0x00000000#32))) = Read.val_main_v15 (F := Ideal) x1 := rfl

/-- The scale: the choice between the reciprocal root and the zero word. -/
theorem segW_v15 (V : Valuation τ sig (Elt Ideal)) (x1 : (⟨S2x1600000, .i32⟩ : BufTy).Contents (Elt Ideal))
    (h_v13 : V (Proc.devRef .tc main_v13) = Read.val_main_v13 (F := Ideal) x1)
    (h_v14 : V (Proc.devRef .tc main_v14) = Read.val_main_v14 (F := Ideal) x1) :
    after (((Value.ops (F := Ideal)).drop 18).take 4) V (Proc.devRef .tc main_v15) = Read.val_main_v15 (F := Ideal) x1 :=
  (segW_raw V _ _ h_v13 h_v14).trans (segW_stage x1)

set_option maxRecDepth 8192 in
set_option maxHeartbeats 4000000 in
/-- These operations write none of the buffers still to be read. -/
theorem segW_keep (V : Valuation τ sig (Elt Ideal)) :
    after (((Value.ops (F := Ideal)).drop 18).take 4) V (Proc.devRef .tc main_v3) = V (Proc.devRef .tc main_v3)
    ∧ after (((Value.ops (F := Ideal)).drop 18).take 4) V (Proc.devRef .tc main_v6) = V (Proc.devRef .tc main_v6)
    ∧ after (((Value.ops (F := Ideal)).drop 18).take 4) V (Proc.devRef .tc main_v7) = V (Proc.devRef .tc main_v7)
    ∧ after (((Value.ops (F := Ideal)).drop 18).take 4) V (Proc.devRef .tc main_arg3) = V (Proc.devRef .tc main_arg3)
    ∧ after (((Value.ops (F := Ideal)).drop 18).take 4) V (Proc.devRef .tc main_arg4) = V (Proc.devRef .tc main_arg4)
    ∧ after (((Value.ops (F := Ideal)).drop 18).take 4) V (Proc.devRef .tc main_arg5) = V (Proc.devRef .tc main_arg5)
    ∧ after (((Value.ops (F := Ideal)).drop 18).take 4) V (Proc.devRef .tc main_arg6) = V (Proc.devRef .tc main_arg6)
    ∧ after (((Value.ops (F := Ideal)).drop 18).take 4) V (Proc.devRef .tc main_arg7) = V (Proc.devRef .tc main_arg7)
    ∧ after (((Value.ops (F := Ideal)).drop 18).take 4) V (Proc.devRef .tc main_arg8) = V (Proc.devRef .tc main_arg8)
    ∧ after (((Value.ops (F := Ideal)).drop 18).take 4) V (Proc.devRef .tc main_arg9) = V (Proc.devRef .tc main_arg9) := by
  simp only [Value.ops, List.drop_succ_cons, List.drop_zero, List.take_succ_cons, List.take_zero]
  refine ⟨?_, ?_, ?_, ?_, ?_, ?_, ?_, ?_, ?_, ?_⟩ <;> (after_results_simp <;> first | done | rfl)

set_option maxRecDepth 8192 in
set_option maxHeartbeats 4000000 in
/-- The first layer before its rectifier, from the joined vectors, the first product, the scale and the bias. -/
theorem segB_v46 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal))
    (h_v3 : V (Proc.devRef .tc main_v3) = Read.val_main_v3 (F := Ideal) x1)
    (h_v6 : V (Proc.devRef .tc main_v6) = Read.val_main_v6 (F := Ideal) x1)
    (h_v7 : V (Proc.devRef .tc main_v7) = Read.val_main_v7 (F := Ideal) x0 x2)
    (h_v15 : V (Proc.devRef .tc main_v15) = Read.val_main_v15 (F := Ideal) x1)
    (h_arg3 : V (Proc.devRef .tc main_arg3) = x3) :
    after (((Value.ops (F := Ideal)).drop 22).take 38) V (Proc.devRef .tc main_v46) = Read.val_main_v46 (F := Ideal) x0 x1 x2 x3 := by
  simp only [Value.ops, List.drop_succ_cons, List.drop_zero, List.take_succ_cons, List.take_zero]
  after_results_simp
  simp only [h_v3, h_v6, h_v7, h_v15, h_arg3]
  first | rfl | done

set_option maxRecDepth 8192 in
set_option maxHeartbeats 4000000 in
/-- These operations write none of the buffers still to be read. -/
theorem segB_keep (V : Valuation τ sig (Elt Ideal)) :
    after (((Value.ops (F := Ideal)).drop 22).take 38) V (Proc.devRef .tc main_v3) = V (Proc.devRef .tc main_v3)
    ∧ after (((Value.ops (F := Ideal)).drop 22).take 38) V (Proc.devRef .tc main_v6) = V (Proc.devRef .tc main_v6)
    ∧ after (((Value.ops (F := Ideal)).drop 22).take 38) V (Proc.devRef .tc main_arg4) = V (Proc.devRef .tc main_arg4)
    ∧ after (((Value.ops (F := Ideal)).drop 22).take 38) V (Proc.devRef .tc main_arg5) = V (Proc.devRef .tc main_arg5)
    ∧ after (((Value.ops (F := Ideal)).drop 22).take 38) V (Proc.devRef .tc main_arg6) = V (Proc.devRef .tc main_arg6)
    ∧ after (((Value.ops (F := Ideal)).drop 22).take 38) V (Proc.devRef .tc main_arg7) = V (Proc.devRef .tc main_arg7)
    ∧ after (((Value.ops (F := Ideal)).drop 22).take 38) V (Proc.devRef .tc main_arg8) = V (Proc.devRef .tc main_arg8)
    ∧ after (((Value.ops (F := Ideal)).drop 22).take 38) V (Proc.devRef .tc main_arg9) = V (Proc.devRef .tc main_arg9) := by
  simp only [Value.ops, List.drop_succ_cons, List.drop_zero, List.take_succ_cons, List.take_zero]
  refine ⟨?_, ?_, ?_, ?_, ?_, ?_, ?_, ?_⟩ <;> (after_results_simp <;> first | done | rfl)

set_option maxRecDepth 8192 in
set_option maxHeartbeats 4000000 in
/-- The first layer's rectifier: the maximum with the zero word. Over arbitrary inputs: the typed references of the called function carry the identity transport. -/
theorem segR_raw (V : Valuation τ sig (Elt Ideal)) (A0 : (⟨S100000x128, .f32⟩ : BufTy).Contents (Elt Ideal))
    (h0 : V (Proc.devRef .tc main_v46) = A0) :
    after (((Value.ops (F := Ideal)).drop 60).take 3) V (Proc.devRef .tc main_v47) = maximumf (F := Ideal) A0 (broadcastInDim S100000x128 ![] bcast_S_S100000x128 (constant (F := Ideal) S_ .f32 0x00000000#32)) := by
  simp only [Value.ops, List.drop_succ_cons, List.drop_zero, List.take_succ_cons, List.take_zero]
  after_results_simp
  simp only [h0]
  first | rfl | done

/-- The same choice of stages is the stage. -/
theorem segR_stage (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) :
    maximumf (F := Ideal) (Read.val_main_v46 (F := Ideal) x0 x1 x2 x3) (broadcastInDim S100000x128 ![] bcast_S_S100000x128 (constant (F := Ideal) S_ .f32 0x00000000#32)) = Read.val_main_v47 (F := Ideal) x0 x1 x2 x3 := rfl

/-- The first layer's rectifier: the maximum with the zero word. -/
theorem segR_v47 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal))
    (h_v46 : V (Proc.devRef .tc main_v46) = Read.val_main_v46 (F := Ideal) x0 x1 x2 x3) :
    after (((Value.ops (F := Ideal)).drop 60).take 3) V (Proc.devRef .tc main_v47) = Read.val_main_v47 (F := Ideal) x0 x1 x2 x3 :=
  (segR_raw V _ h_v46).trans (segR_stage x0 x1 x2 x3)

set_option maxRecDepth 8192 in
set_option maxHeartbeats 4000000 in
/-- These operations write none of the buffers still to be read. -/
theorem segR_keep (V : Valuation τ sig (Elt Ideal)) :
    after (((Value.ops (F := Ideal)).drop 60).take 3) V (Proc.devRef .tc main_v3) = V (Proc.devRef .tc main_v3)
    ∧ after (((Value.ops (F := Ideal)).drop 60).take 3) V (Proc.devRef .tc main_v6) = V (Proc.devRef .tc main_v6)
    ∧ after (((Value.ops (F := Ideal)).drop 60).take 3) V (Proc.devRef .tc main_arg4) = V (Proc.devRef .tc main_arg4)
    ∧ after (((Value.ops (F := Ideal)).drop 60).take 3) V (Proc.devRef .tc main_arg5) = V (Proc.devRef .tc main_arg5)
    ∧ after (((Value.ops (F := Ideal)).drop 60).take 3) V (Proc.devRef .tc main_arg6) = V (Proc.devRef .tc main_arg6)
    ∧ after (((Value.ops (F := Ideal)).drop 60).take 3) V (Proc.devRef .tc main_arg7) = V (Proc.devRef .tc main_arg7)
    ∧ after (((Value.ops (F := Ideal)).drop 60).take 3) V (Proc.devRef .tc main_arg8) = V (Proc.devRef .tc main_arg8)
    ∧ after (((Value.ops (F := Ideal)).drop 60).take 3) V (Proc.devRef .tc main_arg9) = V (Proc.devRef .tc main_arg9) := by
  simp only [Value.ops, List.drop_succ_cons, List.drop_zero, List.take_succ_cons, List.take_zero]
  refine ⟨?_, ?_, ?_, ?_, ?_, ?_, ?_, ?_⟩ <;> (after_results_simp <;> first | done | rfl)

set_option maxRecDepth 8192 in
set_option maxHeartbeats 4000000 in
/-- The second matrix product. -/
theorem segC_v48 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) (x4 : (⟨S128x128, .f32⟩ : BufTy).Contents (Elt Ideal))
    (h_v47 : V (Proc.devRef .tc main_v47) = Read.val_main_v47 (F := Ideal) x0 x1 x2 x3)
    (h_arg4 : V (Proc.devRef .tc main_arg4) = x4) :
    after (((Value.ops (F := Ideal)).drop 63).take 11) V (Proc.devRef .tc main_v48) = Read.val_main_v48 (F := Ideal) x0 x1 x2 x3 x4 := by
  simp only [Value.ops, List.drop_succ_cons, List.drop_zero, List.take_succ_cons, List.take_zero]
  after_results_simp
  simp only [h_v47, h_arg4]
  first | rfl | done

set_option maxRecDepth 8192 in
set_option maxHeartbeats 4000000 in
/-- The second layer's copy of the test `deg > 0`. -/
theorem segC_v54 (V : Valuation τ sig (Elt Ideal)) (x1 : (⟨S2x1600000, .i32⟩ : BufTy).Contents (Elt Ideal))
    (h_v6 : V (Proc.devRef .tc main_v6) = Read.val_main_v6 (F := Ideal) x1) :
    after (((Value.ops (F := Ideal)).drop 63).take 11) V (Proc.devRef .tc main_v54) = Read.val_main_v54 (F := Ideal) x1 := by
  simp only [Value.ops, List.drop_succ_cons, List.drop_zero, List.take_succ_cons, List.take_zero]
  after_results_simp
  simp only [h_v6]
  first | rfl | done

set_option maxRecDepth 8192 in
set_option maxHeartbeats 4000000 in
/-- The second layer's copy of the reciprocal root of the degree. -/
theorem segC_v55 (V : Valuation τ sig (Elt Ideal)) (x1 : (⟨S2x1600000, .i32⟩ : BufTy).Contents (Elt Ideal))
    (h_v6 : V (Proc.devRef .tc main_v6) = Read.val_main_v6 (F := Ideal) x1) :
    after (((Value.ops (F := Ideal)).drop 63).take 11) V (Proc.devRef .tc main_v55) = Read.val_main_v55 (F := Ideal) x1 := by
  simp only [Value.ops, List.drop_succ_cons, List.drop_zero, List.take_succ_cons, List.take_zero]
  after_results_simp
  simp only [h_v6]
  first | rfl | done

set_option maxRecDepth 8192 in
set_option maxHeartbeats 4000000 in
/-- These operations write none of the buffers still to be read. -/
theorem segC_keep (V : Valuation τ sig (Elt Ideal)) :
    after (((Value.ops (F := Ideal)).drop 63).take 11) V (Proc.devRef .tc main_v3) = V (Proc.devRef .tc main_v3)
    ∧ after (((Value.ops (F := Ideal)).drop 63).take 11) V (Proc.devRef .tc main_v6) = V (Proc.devRef .tc main_v6)
    ∧ after (((Value.ops (F := Ideal)).drop 63).take 11) V (Proc.devRef .tc main_arg5) = V (Proc.devRef .tc main_arg5)
    ∧ after (((Value.ops (F := Ideal)).drop 63).take 11) V (Proc.devRef .tc main_arg6) = V (Proc.devRef .tc main_arg6)
    ∧ after (((Value.ops (F := Ideal)).drop 63).take 11) V (Proc.devRef .tc main_arg7) = V (Proc.devRef .tc main_arg7)
    ∧ after (((Value.ops (F := Ideal)).drop 63).take 11) V (Proc.devRef .tc main_arg8) = V (Proc.devRef .tc main_arg8)
    ∧ after (((Value.ops (F := Ideal)).drop 63).take 11) V (Proc.devRef .tc main_arg9) = V (Proc.devRef .tc main_arg9) := by
  simp only [Value.ops, List.drop_succ_cons, List.drop_zero, List.take_succ_cons, List.take_zero]
  refine ⟨?_, ?_, ?_, ?_, ?_, ?_, ?_⟩ <;> (after_results_simp <;> first | done | rfl)

set_option maxRecDepth 8192 in
set_option maxHeartbeats 4000000 in
/-- The second layer's copy of the scale. Over arbitrary inputs: the typed references of the called function carry the identity transport. -/
theorem segX_raw (V : Valuation τ sig (Elt Ideal)) (A0 : (⟨S100000, .i1⟩ : BufTy).Contents (Elt Ideal)) (A1 : (⟨S100000, .f32⟩ : BufTy).Contents (Elt Ideal))
    (h0 : V (Proc.devRef .tc main_v54) = A0) (h1 : V (Proc.devRef .tc main_v55) = A1) :
    after (((Value.ops (F := Ideal)).drop 74).take 4) V (Proc.devRef .tc main_v56) = select A0 A1 (broadcastInDim S100000 ![] bcast_S_S100000 (id (constant (F := Ideal) S_ .f32 0x00000000#32))) := by
  simp only [Value.ops, List.drop_succ_cons, List.drop_zero, List.take_succ_cons, List.take_zero]
  after_results_simp
  simp only [h0, h1]
  first | rfl | done

/-- The same choice of stages is the stage. -/
theorem segX_stage (x1 : (⟨S2x1600000, .i32⟩ : BufTy).Contents (Elt Ideal)) :
    select (Read.val_main_v54 (F := Ideal) x1) (Read.val_main_v55 (F := Ideal) x1) (broadcastInDim S100000 ![] bcast_S_S100000 (id (constant (F := Ideal) S_ .f32 0x00000000#32))) = Read.val_main_v56 (F := Ideal) x1 := rfl

/-- The second layer's copy of the scale. -/
theorem segX_v56 (V : Valuation τ sig (Elt Ideal)) (x1 : (⟨S2x1600000, .i32⟩ : BufTy).Contents (Elt Ideal))
    (h_v54 : V (Proc.devRef .tc main_v54) = Read.val_main_v54 (F := Ideal) x1)
    (h_v55 : V (Proc.devRef .tc main_v55) = Read.val_main_v55 (F := Ideal) x1) :
    after (((Value.ops (F := Ideal)).drop 74).take 4) V (Proc.devRef .tc main_v56) = Read.val_main_v56 (F := Ideal) x1 :=
  (segX_raw V _ _ h_v54 h_v55).trans (segX_stage x1)

set_option maxRecDepth 8192 in
set_option maxHeartbeats 4000000 in
/-- These operations write none of the buffers still to be read. -/
theorem segX_keep (V : Valuation τ sig (Elt Ideal)) :
    after (((Value.ops (F := Ideal)).drop 74).take 4) V (Proc.devRef .tc main_v3) = V (Proc.devRef .tc main_v3)
    ∧ after (((Value.ops (F := Ideal)).drop 74).take 4) V (Proc.devRef .tc main_v6) = V (Proc.devRef .tc main_v6)
    ∧ after (((Value.ops (F := Ideal)).drop 74).take 4) V (Proc.devRef .tc main_v48) = V (Proc.devRef .tc main_v48)
    ∧ after (((Value.ops (F := Ideal)).drop 74).take 4) V (Proc.devRef .tc main_arg5) = V (Proc.devRef .tc main_arg5)
    ∧ after (((Value.ops (F := Ideal)).drop 74).take 4) V (Proc.devRef .tc main_arg6) = V (Proc.devRef .tc main_arg6)
    ∧ after (((Value.ops (F := Ideal)).drop 74).take 4) V (Proc.devRef .tc main_arg7) = V (Proc.devRef .tc main_arg7)
    ∧ after (((Value.ops (F := Ideal)).drop 74).take 4) V (Proc.devRef .tc main_arg8) = V (Proc.devRef .tc main_arg8)
    ∧ after (((Value.ops (F := Ideal)).drop 74).take 4) V (Proc.devRef .tc main_arg9) = V (Proc.devRef .tc main_arg9) := by
  simp only [Value.ops, List.drop_succ_cons, List.drop_zero, List.take_succ_cons, List.take_zero]
  refine ⟨?_, ?_, ?_, ?_, ?_, ?_, ?_, ?_⟩ <;> (after_results_simp <;> first | done | rfl)

set_option maxRecDepth 8192 in
set_option maxHeartbeats 4000000 in
/-- The second layer and the decoder's first product with its bias, from the joined vectors, the second product, the scale and three arguments. -/
theorem segD_v91 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (h_v3 : V (Proc.devRef .tc main_v3) = Read.val_main_v3 (F := Ideal) x1)
    (h_v6 : V (Proc.devRef .tc main_v6) = Read.val_main_v6 (F := Ideal) x1)
    (h_v48 : V (Proc.devRef .tc main_v48) = Read.val_main_v48 (F := Ideal) x0 x1 x2 x3 x4)
    (h_v56 : V (Proc.devRef .tc main_v56) = Read.val_main_v56 (F := Ideal) x1)
    (h_arg5 : V (Proc.devRef .tc main_arg5) = x5)
    (h_arg6 : V (Proc.devRef .tc main_arg6) = x6)
    (h_arg7 : V (Proc.devRef .tc main_arg7) = x7) :
    after (((Value.ops (F := Ideal)).drop 78).take 42) V (Proc.devRef .tc main_v91) = Read.val_main_v91 (F := Ideal) x0 x1 x2 x3 x4 x5 x6 x7 := by
  simp only [Value.ops, List.drop_succ_cons, List.drop_zero, List.take_succ_cons, List.take_zero]
  after_results_simp
  simp only [h_v3, h_v6, h_v48, h_v56, h_arg5, h_arg6, h_arg7]
  first | rfl | done

set_option maxRecDepth 8192 in
set_option maxHeartbeats 4000000 in
/-- These operations write none of the buffers still to be read. -/
theorem segD_keep (V : Valuation τ sig (Elt Ideal)) :
    after (((Value.ops (F := Ideal)).drop 78).take 42) V (Proc.devRef .tc main_arg8) = V (Proc.devRef .tc main_arg8)
    ∧ after (((Value.ops (F := Ideal)).drop 78).take 42) V (Proc.devRef .tc main_arg9) = V (Proc.devRef .tc main_arg9) := by
  simp only [Value.ops, List.drop_succ_cons, List.drop_zero, List.take_succ_cons, List.take_zero]
  refine ⟨?_, ?_⟩ <;> (after_results_simp <;> first | done | rfl)

set_option maxRecDepth 8192 in
set_option maxHeartbeats 4000000 in
/-- The decoder's rectifier: the maximum with the zero word. Over arbitrary inputs: the typed references of the called function carry the identity transport. -/
theorem segS_raw (V : Valuation τ sig (Elt Ideal)) (A0 : (⟨S100000x128, .f32⟩ : BufTy).Contents (Elt Ideal))
    (h0 : V (Proc.devRef .tc main_v91) = A0) :
    after (((Value.ops (F := Ideal)).drop 120).take 3) V (Proc.devRef .tc main_v92) = maximumf (F := Ideal) A0 (broadcastInDim S100000x128 ![] bcast_S_S100000x128 (constant (F := Ideal) S_ .f32 0x00000000#32)) := by
  simp only [Value.ops, List.drop_succ_cons, List.drop_zero, List.take_succ_cons, List.take_zero]
  after_results_simp
  simp only [h0]
  first | rfl | done

/-- The same choice of stages is the stage. -/
theorem segS_stage (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    maximumf (F := Ideal) (Read.val_main_v91 (F := Ideal) x0 x1 x2 x3 x4 x5 x6 x7) (broadcastInDim S100000x128 ![] bcast_S_S100000x128 (constant (F := Ideal) S_ .f32 0x00000000#32)) = Read.val_main_v92 (F := Ideal) x0 x1 x2 x3 x4 x5 x6 x7 := rfl

/-- The decoder's rectifier: the maximum with the zero word. -/
theorem segS_v92 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (h_v91 : V (Proc.devRef .tc main_v91) = Read.val_main_v91 (F := Ideal) x0 x1 x2 x3 x4 x5 x6 x7) :
    after (((Value.ops (F := Ideal)).drop 120).take 3) V (Proc.devRef .tc main_v92) = Read.val_main_v92 (F := Ideal) x0 x1 x2 x3 x4 x5 x6 x7 :=
  (segS_raw V _ h_v91).trans (segS_stage x0 x1 x2 x3 x4 x5 x6 x7)

set_option maxRecDepth 8192 in
set_option maxHeartbeats 4000000 in
/-- These operations write none of the buffers still to be read. -/
theorem segS_keep (V : Valuation τ sig (Elt Ideal)) :
    after (((Value.ops (F := Ideal)).drop 120).take 3) V (Proc.devRef .tc main_arg8) = V (Proc.devRef .tc main_arg8)
    ∧ after (((Value.ops (F := Ideal)).drop 120).take 3) V (Proc.devRef .tc main_arg9) = V (Proc.devRef .tc main_arg9) := by
  simp only [Value.ops, List.drop_succ_cons, List.drop_zero, List.take_succ_cons, List.take_zero]
  refine ⟨?_, ?_⟩ <;> (after_results_simp <;> first | done | rfl)

set_option maxRecDepth 8192 in
set_option maxHeartbeats 4000000 in
/-- The decoder's second product with its bias. -/
theorem segE_v96 (V : Valuation τ sig (Elt Ideal)) (x0 : (⟨S100000x6, .f32⟩ : BufTy).Contents (Elt Ideal)) (x1 : (⟨S2x1600000, .i32⟩ : BufTy).Contents (Elt Ideal)) (x2 : (⟨S6x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x6, .f32⟩ : BufTy).Contents (Elt Ideal)) (x9 : (⟨S6, .f32⟩ : BufTy).Contents (Elt Ideal))
    (h_v92 : V (Proc.devRef .tc main_v92) = Read.val_main_v92 (F := Ideal) x0 x1 x2 x3 x4 x5 x6 x7)
    (h_arg8 : V (Proc.devRef .tc main_arg8) = x8)
    (h_arg9 : V (Proc.devRef .tc main_arg9) = x9) :
    after ((Value.ops (F := Ideal)).drop 123) V (Proc.devRef .tc main_v96) = Read.val_main_v96 (F := Ideal) x0 x1 x2 x3 x4 x5 x6 x7 x8 x9 := by
  simp only [Value.ops, List.drop_succ_cons, List.drop_zero, List.take_succ_cons, List.take_zero]
  after_results_simp
  simp only [h_v92, h_arg8, h_arg9]
  first | rfl | done

/-! ## The whole list -/

set_option maxRecDepth 8192 in
set_option maxHeartbeats 4000000 in
/-- THE FOLD AT THE RESULT BUFFER is the reference's last stage of the ten arguments. -/
theorem fold_v96 (m : (ℓ : Loc nD τ sig) → Buf (Elt Ideal) ℓ) (c : Dev nD) :
    after (Value.ops (F := Ideal)) (launchContents m c) (Proc.devRef .tc main_v96)
      = Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have hsplit : (Value.ops (F := Ideal)) = List.take 7 (Value.ops (F := Ideal)) ++ List.drop 7 (Value.ops (F := Ideal)) := (List.take_append_drop 7 _).symm
  rw [hsplit, after_append]
  have h_v3 := head_v3 m c
  have h_v6 := head_v6 m c
  have h_arg0 := head_arg0 m c
  have h_arg2 := head_arg2 m c
  have h_arg3 := head_arg3 m c
  have h_arg4 := head_arg4 m c
  have h_arg5 := head_arg5 m c
  have h_arg6 := head_arg6 m c
  have h_arg7 := head_arg7 m c
  have h_arg8 := head_arg8 m c
  have h_arg9 := head_arg9 m c
  generalize after (List.take 7 (Value.ops (F := Ideal))) (launchContents m c) = V0 at h_v3 h_v6 h_arg0 h_arg2 h_arg3 h_arg4 h_arg5 h_arg6 h_arg7 h_arg8 h_arg9 ⊢
  -- the next 11 operations
  refine (congrFun (peel (Value.ops (F := Ideal)) 7 11 18 rfl V0) _).trans ?_
  have h1_v7 := segA_v7 V0 _ _ h_arg0 h_arg2
  have h1_v13 := segA_v13 V0 _ h_v6
  have h1_v14 := segA_v14 V0 _ h_v6
  have h1_v3 := ((segA_keep V0).1).trans h_v3
  have h1_v6 := ((segA_keep V0).2.1).trans h_v6
  have h1_arg3 := ((segA_keep V0).2.2.1).trans h_arg3
  have h1_arg4 := ((segA_keep V0).2.2.2.1).trans h_arg4
  have h1_arg5 := ((segA_keep V0).2.2.2.2.1).trans h_arg5
  have h1_arg6 := ((segA_keep V0).2.2.2.2.2.1).trans h_arg6
  have h1_arg7 := ((segA_keep V0).2.2.2.2.2.2.1).trans h_arg7
  have h1_arg8 := ((segA_keep V0).2.2.2.2.2.2.2.1).trans h_arg8
  have h1_arg9 := ((segA_keep V0).2.2.2.2.2.2.2.2).trans h_arg9
  generalize after (((Value.ops (F := Ideal)).drop 7).take 11) V0 = V1 at h1_v7 h1_v13 h1_v14 h1_v3 h1_v6 h1_arg3 h1_arg4 h1_arg5 h1_arg6 h1_arg7 h1_arg8 h1_arg9 ⊢
  -- the next 4 operations
  refine (congrFun (peel (Value.ops (F := Ideal)) 18 4 22 rfl V1) _).trans ?_
  have h2_v15 := segW_v15 V1 _ h1_v13 h1_v14
  have h2_v3 := ((segW_keep V1).1).trans h1_v3
  have h2_v6 := ((segW_keep V1).2.1).trans h1_v6
  have h2_v7 := ((segW_keep V1).2.2.1).trans h1_v7
  have h2_arg3 := ((segW_keep V1).2.2.2.1).trans h1_arg3
  have h2_arg4 := ((segW_keep V1).2.2.2.2.1).trans h1_arg4
  have h2_arg5 := ((segW_keep V1).2.2.2.2.2.1).trans h1_arg5
  have h2_arg6 := ((segW_keep V1).2.2.2.2.2.2.1).trans h1_arg6
  have h2_arg7 := ((segW_keep V1).2.2.2.2.2.2.2.1).trans h1_arg7
  have h2_arg8 := ((segW_keep V1).2.2.2.2.2.2.2.2.1).trans h1_arg8
  have h2_arg9 := ((segW_keep V1).2.2.2.2.2.2.2.2.2).trans h1_arg9
  generalize after (((Value.ops (F := Ideal)).drop 18).take 4) V1 = V2 at h2_v15 h2_v3 h2_v6 h2_v7 h2_arg3 h2_arg4 h2_arg5 h2_arg6 h2_arg7 h2_arg8 h2_arg9 ⊢
  -- the next 38 operations
  refine (congrFun (peel (Value.ops (F := Ideal)) 22 38 60 rfl V2) _).trans ?_
  have h3_v46 := segB_v46 V2 _ _ _ _ h2_v3 h2_v6 h2_v7 h2_v15 h2_arg3
  have h3_v3 := ((segB_keep V2).1).trans h2_v3
  have h3_v6 := ((segB_keep V2).2.1).trans h2_v6
  have h3_arg4 := ((segB_keep V2).2.2.1).trans h2_arg4
  have h3_arg5 := ((segB_keep V2).2.2.2.1).trans h2_arg5
  have h3_arg6 := ((segB_keep V2).2.2.2.2.1).trans h2_arg6
  have h3_arg7 := ((segB_keep V2).2.2.2.2.2.1).trans h2_arg7
  have h3_arg8 := ((segB_keep V2).2.2.2.2.2.2.1).trans h2_arg8
  have h3_arg9 := ((segB_keep V2).2.2.2.2.2.2.2).trans h2_arg9
  generalize after (((Value.ops (F := Ideal)).drop 22).take 38) V2 = V3 at h3_v46 h3_v3 h3_v6 h3_arg4 h3_arg5 h3_arg6 h3_arg7 h3_arg8 h3_arg9 ⊢
  -- the next 3 operations
  refine (congrFun (peel (Value.ops (F := Ideal)) 60 3 63 rfl V3) _).trans ?_
  have h4_v47 := segR_v47 V3 _ _ _ _ h3_v46
  have h4_v3 := ((segR_keep V3).1).trans h3_v3
  have h4_v6 := ((segR_keep V3).2.1).trans h3_v6
  have h4_arg4 := ((segR_keep V3).2.2.1).trans h3_arg4
  have h4_arg5 := ((segR_keep V3).2.2.2.1).trans h3_arg5
  have h4_arg6 := ((segR_keep V3).2.2.2.2.1).trans h3_arg6
  have h4_arg7 := ((segR_keep V3).2.2.2.2.2.1).trans h3_arg7
  have h4_arg8 := ((segR_keep V3).2.2.2.2.2.2.1).trans h3_arg8
  have h4_arg9 := ((segR_keep V3).2.2.2.2.2.2.2).trans h3_arg9
  generalize after (((Value.ops (F := Ideal)).drop 60).take 3) V3 = V4 at h4_v47 h4_v3 h4_v6 h4_arg4 h4_arg5 h4_arg6 h4_arg7 h4_arg8 h4_arg9 ⊢
  -- the next 11 operations
  refine (congrFun (peel (Value.ops (F := Ideal)) 63 11 74 rfl V4) _).trans ?_
  have h5_v48 := segC_v48 V4 _ _ _ _ _ h4_v47 h4_arg4
  have h5_v54 := segC_v54 V4 _ h4_v6
  have h5_v55 := segC_v55 V4 _ h4_v6
  have h5_v3 := ((segC_keep V4).1).trans h4_v3
  have h5_v6 := ((segC_keep V4).2.1).trans h4_v6
  have h5_arg5 := ((segC_keep V4).2.2.1).trans h4_arg5
  have h5_arg6 := ((segC_keep V4).2.2.2.1).trans h4_arg6
  have h5_arg7 := ((segC_keep V4).2.2.2.2.1).trans h4_arg7
  have h5_arg8 := ((segC_keep V4).2.2.2.2.2.1).trans h4_arg8
  have h5_arg9 := ((segC_keep V4).2.2.2.2.2.2).trans h4_arg9
  generalize after (((Value.ops (F := Ideal)).drop 63).take 11) V4 = V5 at h5_v48 h5_v54 h5_v55 h5_v3 h5_v6 h5_arg5 h5_arg6 h5_arg7 h5_arg8 h5_arg9 ⊢
  -- the next 4 operations
  refine (congrFun (peel (Value.ops (F := Ideal)) 74 4 78 rfl V5) _).trans ?_
  have h6_v56 := segX_v56 V5 _ h5_v54 h5_v55
  have h6_v3 := ((segX_keep V5).1).trans h5_v3
  have h6_v6 := ((segX_keep V5).2.1).trans h5_v6
  have h6_v48 := ((segX_keep V5).2.2.1).trans h5_v48
  have h6_arg5 := ((segX_keep V5).2.2.2.1).trans h5_arg5
  have h6_arg6 := ((segX_keep V5).2.2.2.2.1).trans h5_arg6
  have h6_arg7 := ((segX_keep V5).2.2.2.2.2.1).trans h5_arg7
  have h6_arg8 := ((segX_keep V5).2.2.2.2.2.2.1).trans h5_arg8
  have h6_arg9 := ((segX_keep V5).2.2.2.2.2.2.2).trans h5_arg9
  generalize after (((Value.ops (F := Ideal)).drop 74).take 4) V5 = V6 at h6_v56 h6_v3 h6_v6 h6_v48 h6_arg5 h6_arg6 h6_arg7 h6_arg8 h6_arg9 ⊢
  -- the next 42 operations
  refine (congrFun (peel (Value.ops (F := Ideal)) 78 42 120 rfl V6) _).trans ?_
  have h7_v91 := segD_v91 V6 _ _ _ _ _ _ _ _ h6_v3 h6_v6 h6_v48 h6_v56 h6_arg5 h6_arg6 h6_arg7
  have h7_arg8 := ((segD_keep V6).1).trans h6_arg8
  have h7_arg9 := ((segD_keep V6).2).trans h6_arg9
  generalize after (((Value.ops (F := Ideal)).drop 78).take 42) V6 = V7 at h7_v91 h7_arg8 h7_arg9 ⊢
  -- the next 3 operations
  refine (congrFun (peel (Value.ops (F := Ideal)) 120 3 123 rfl V7) _).trans ?_
  have h8_v92 := segS_v92 V7 _ _ _ _ _ _ _ _ h7_v91
  have h8_arg8 := ((segS_keep V7).1).trans h7_arg8
  have h8_arg9 := ((segS_keep V7).2).trans h7_arg9
  generalize after (((Value.ops (F := Ideal)).drop 120).take 3) V7 = V8 at h8_v92 h8_arg8 h8_arg9 ⊢
  exact segE_v96 V8 _ _ _ _ _ _ _ _ _ _ h8_v92 h8_arg8 h8_arg9

end Cert.ReferenceIdeal.RefFold

end
-- ==== Proof.RefRead.lean ====
/-
  The reference program read at an index.

  The reference computes a two-layer graph convolution in the edge-weight form: every gathered row of a node table is
  multiplied by the weight `dinv (src e) · dinv (dst e)` of its edge and the rows landing on a node are summed. Its
  operations are read here one at a time, from the outside in, at one index: a matrix product is a finite sum over the
  contracted coordinate, the rectifier is a maximum with the zero word, a row scatter-add is the operand plus the sum
  over the edges landing on the row, a gather reads the row named by a clamped start word. Layer by layer the stages are
  identified with the specification's `mmf`, `aggR`, `rH`, `rZ` and `dec`, and the last stage with `refOut`.

  Two facts about the graph data are read off the integer stages. An edge whose destination word, read signed, is a node
  `n` is not negative, so the wrap `select (d < 0) (d + N) d` keeps the word, and clamping `n` into the node range is
  `n`: the destination row of an edge landing on `n` is `n`. The scale is `select (deg > 0) (rsqrt deg) 0`: whatever the
  extended real `deg` is, that is a real number, because a positive real has a real reciprocal root, the reciprocal root
  of `+∞` is `0`, and the other branch is `0`.
-/
import proofs.«137930_j50749333569689_2_alg».proof.Proof.ReadP
import proofs.«137930_j50749333569689_2_alg».proof.Proof.Spec
import proofs.«137930_j50749333569689_2_alg».proof.Proof.LibScatterGather

noncomputable section

open scoped BigOperators

namespace Cert.ReferenceIdeal.RefValue

open Cert.ReferenceIdeal Cert.ReferenceIdeal.Gen Idealize.ShloMosaic Idealize.ShloMosaic.ValueIdx Idealize.ShloMosaic.StableHlo
open Cert.Lib.ScatterGather

/-! ## The scale is a real number -/

/-- `select (d > 0) (rsqrt d) 0` is a real number for every extended real `d`. -/
theorem select_rsqrt_isR (d : EReal) :
    Spec.IsR (Scalar.select (Ideal.cmp .ogt d 0) (Ideal.rsqrt d) (0 : EReal)) := by
  show Spec.IsR (if BitVec.ofBool (decide ((0 : EReal) < d)) = 1 then Ideal.rsqrt d else 0)
  by_cases h : (0 : EReal) < d
  · rw [if_pos (by rw [decide_eq_true h]; rfl)]
    induction d using EReal.rec with
    | bot => exact absurd h (by simp)
    | coe r =>
      have hr : 0 < r := by exact_mod_cast h
      rw [Ideal.rsqrt_coe, if_neg (not_lt.mpr hr.le), if_neg hr.ne']
      exact ⟨_, rfl⟩
    | top => exact ⟨0, rfl⟩
  · rw [if_neg (by rw [decide_eq_false h]; decide)]
    exact Spec.IsR.zero

/-- Every entry of the scale `where(deg > 0, rsqrt deg, 0)` is a real number, whatever the degree is. -/
theorem ref_dinv_isR (x1 : (⟨S2x1600000, .i32⟩ : BufTy).Contents (Elt Ideal)) (n : Fin 100000) :
    Spec.IsR (Read.val_main_v15 (F := Ideal) x1 (ix1 n)) := by
  rw [Read.val_main_v15_apply, Read.val_main_v13_apply, Read.val_main_v14_apply, Read.val_main_call0_v1_apply,
    Read.val_main_call0_v0_apply, Read.val_main_cst_2_apply, Read.val_main_v12_apply, Read.val_main_cst_1_apply]
  generalize Read.val_main_v11 (F := Ideal) x1 (ix1 n) = d
  rw [Ideal.ofBits_def, Ideal.ofBits_zero_f32, Ideal.cmpf_def, Ideal.hostUnary_rsqrt_def]
  exact select_rsqrt_isR d

/-! ## An edge landing on a node has that node as its destination row -/

/-- The destination word of edge `e`, read signed, is `n` with `0 ≤ n < 100000`: the word is not negative, so the wrap
    keeps it, and the clamp into `[0, 99999]` is `n`. -/
theorem ref_land (x1 : (⟨S2x1600000, .i32⟩ : BufTy).Contents (Elt Ideal)) (n : Fin 100000) (e : Fin 1700000)
    (he : e ∈ Spec.land (Read.val_main_v42 (F := Ideal) x1) n) :
    Spec.row (Read.val_main_v28 (F := Ideal) x1) e = n := by
  have hj42 : Read.idx_main_v42 (ix2 e (0 : Fin 1)) = ix1 e :=
    funext fun a => Fin.ext (by match a with | ⟨0, _⟩ => rfl)
  have hj28 : Read.idx_main_v28 (ix2 e (0 : Fin 1)) = ix1 e :=
    funext fun a => Fin.ext (by match a with | ⟨0, _⟩ => rfl)
  unfold Spec.land at he
  rw [Finset.mem_filter] at he
  have hw := he.2
  rw [Read.val_main_v42_apply, hj42] at hw
  unfold Spec.row
  refine Fin.ext ?_
  show min ((Read.val_main_v28 (F := Ideal) x1 (ix2 e (0 : Fin 1))).toInt.toNat) (100000 - 1) = n.val
  rw [Read.val_main_v28_apply, hj28, Read.val_main_v27_apply, Read.val_main_v24_apply, Read.val_main_v23_apply,
    Read.val_main_c_4_apply]
  generalize Read.val_main_v6 (F := Ideal) x1 (ix1 e) = w at hw ⊢
  have hlt : IntOp.cmpi .slt w 0#32 = 0#1 := by
    show BitVec.ofBool (w.slt 0#32) = 0#1
    have hs : w.slt 0#32 = false := by
      simp only [BitVec.slt, BitVec.toInt_zero, decide_eq_false_iff_not, Int.not_lt]
      omega
    rw [hs]; rfl
  rw [hlt, select_zero, hw]
  have := n.isLt
  omega

/-! ## The dimension numbers of the printed program are the generic ones at literal sizes -/

theorem rowScatter_eq :
    scatter_S100000x128_S1700000x1_S1700000x128_1_0_0_1
      = rowScatterDims 100000 1700000 128 Facts₀.scatter_S100000x128_S1700000x1_S1700000x128_1_0_0_1_wf := rfl

theorem flatScatter_eq :
    scatter_S100000_S1700000x1_S1700000_n_0_0_1
      = flatScatterDims 100000 1700000 Facts₀.scatter_S100000_S1700000x1_S1700000_n_0_0_1_wf := rfl

theorem rowGather_eq :
    gather_S100000x128_S1700000x1_S1700000x128_1_0_n_n_0_1_1128
      = rowGatherDims 100000 1700000 128 Facts₀.gather_S100000x128_S1700000x1_S1700000x128_1_0_n_n_0_1_1128_wf := rfl

theorem flatGather_eq :
    gather_S100000_S1700000x1_S1700000_n_0_n_n_0_1_1
      = flatGatherDims 100000 1700000 Facts₀.gather_S100000_S1700000x1_S1700000_n_0_n_n_0_1_1_wf := rfl

section Stages

variable (x0 : (⟨S100000x6, .f32⟩ : BufTy).Contents (Elt Ideal)) (x1 : (⟨S2x1600000, .i32⟩ : BufTy).Contents (Elt Ideal))
  (x2 : (⟨S6x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x6, .f32⟩ : BufTy).Contents (Elt Ideal)) (x9 : (⟨S6, .f32⟩ : BufTy).Contents (Elt Ideal))

/-! ## The second layer repeats the first layer's graph stages: the same terms -/

theorem v21_eq : Read.val_main_v21 (F := Ideal) x1 = Read.val_main_v36 (F := Ideal) x1 := rfl
theorem v62_eq : Read.val_main_v62 (F := Ideal) x1 = Read.val_main_v36 (F := Ideal) x1 := rfl
theorem v77_eq : Read.val_main_v77 (F := Ideal) x1 = Read.val_main_v36 (F := Ideal) x1 := rfl
theorem v69_eq : Read.val_main_v69 (F := Ideal) x1 = Read.val_main_v28 (F := Ideal) x1 := rfl
theorem v83_eq : Read.val_main_v83 (F := Ideal) x1 = Read.val_main_v42 (F := Ideal) x1 := rfl
theorem v56_eq : Read.val_main_v56 (F := Ideal) x1 = Read.val_main_v15 (F := Ideal) x1 := rfl

/-! ## The edge weight -/

/-- The scale gathered along the wrapped source column: the scale of the source row. -/
theorem v22_read (e : Fin 1700000) :
    Read.val_main_v22 (F := Ideal) x1 (ix1 e) = (Read.val_main_v15 (F := Ideal) x1) (ix1 (Spec.row (Read.val_main_v36 (F := Ideal) x1) e)) := by
  unfold Read.val_main_v22
  rw [flatGather_eq, v21_eq]
  exact gather_flat_apply (by omega) _ (Read.val_main_v15 (F := Ideal) x1) (Read.val_main_v36 (F := Ideal) x1) e

/-- The scale gathered along the wrapped destination column: the scale of the destination row. -/
theorem v29_read (e : Fin 1700000) :
    Read.val_main_v29 (F := Ideal) x1 (ix1 e) = (Read.val_main_v15 (F := Ideal) x1) (ix1 (Spec.row (Read.val_main_v28 (F := Ideal) x1) e)) := by
  unfold Read.val_main_v29
  rw [flatGather_eq]
  exact gather_flat_apply (by omega) _ (Read.val_main_v15 (F := Ideal) x1) (Read.val_main_v28 (F := Ideal) x1) e

/-- The weight of edge `e`: the product of the scales of its source and destination rows. -/
theorem v30_read (e : Fin 1700000) :
    Read.val_main_v30 (F := Ideal) x1 (ix1 e) = ((Read.val_main_v15 (F := Ideal) x1) (ix1 (Spec.row (Read.val_main_v36 (F := Ideal) x1) e)) * (Read.val_main_v15 (F := Ideal) x1) (ix1 (Spec.row (Read.val_main_v28 (F := Ideal) x1) e))) := by
  rw [Read.val_main_v30_apply, v22_read, v29_read]
  rfl

/-- The second layer computes the same weight. -/
theorem v71_read (e : Fin 1700000) :
    Read.val_main_v71 (F := Ideal) x1 (ix1 e) = ((Read.val_main_v15 (F := Ideal) x1) (ix1 (Spec.row (Read.val_main_v36 (F := Ideal) x1) e)) * (Read.val_main_v15 (F := Ideal) x1) (ix1 (Spec.row (Read.val_main_v28 (F := Ideal) x1) e))) := by
  rw [Read.val_main_v71_apply]
  unfold Read.val_main_v63 Read.val_main_v70
  rw [flatGather_eq, v62_eq, v69_eq, v56_eq,
    gather_flat_apply (by omega) _ (Read.val_main_v15 (F := Ideal) x1) (Read.val_main_v36 (F := Ideal) x1) e,
    gather_flat_apply (by omega) _ (Read.val_main_v15 (F := Ideal) x1) (Read.val_main_v28 (F := Ideal) x1) e]
  rfl

/-! ## The first layer -/

/-- The first matrix product. -/
theorem v7_read (r : Fin 100000) (c : Fin 128) :
    Read.val_main_v7 (F := Ideal) x0 x2 (ix2 r c) = Spec.mmf (Spec.rows x0) x2 r c := by
  rw [Read.val_main_v7_apply]
  show _ = ∑ k : Fin 6, x0 (ix2 r k) * x2 (ix2 k c)
  refine Finset.sum_congr rfl fun k _ => ?_
  have hl : Read.lidx_main_v7 (ix2 r c) k = ix2 r k := funext fun a => Fin.ext (by match a with | ⟨0, _⟩ => rfl | ⟨1, _⟩ => rfl)
  have hr : Read.ridx_main_v7 (ix2 r c) k = ix2 k c := funext fun a => Fin.ext (by match a with | ⟨0, _⟩ => rfl | ⟨1, _⟩ => rfl)
  rw [hl, hr]

/-- The rows of the first product gathered along the wrapped source column. -/
theorem v37_read (e : Fin 1700000) (c : Fin 128) :
    Read.val_main_v37 (F := Ideal) x0 x1 x2 (ix2 e c)
      = Read.val_main_v7 (F := Ideal) x0 x2 (ix2 (Spec.row (Read.val_main_v36 (F := Ideal) x1) e) c) := by
  unfold Read.val_main_v37
  rw [rowGather_eq]
  exact gather_rows_apply (by omega) _ (Read.val_main_v7 (F := Ideal) x0 x2) (Read.val_main_v36 (F := Ideal) x1) e c

/-- The gathered row times the weight of its edge. -/
theorem v40_read (e : Fin 1700000) (c : Fin 128) :
    Read.val_main_v40 (F := Ideal) x0 x1 x2 (ix2 e c)
      = Spec.mmf (Spec.rows x0) x2 (Spec.row (Read.val_main_v36 (F := Ideal) x1) e) c * ((Read.val_main_v15 (F := Ideal) x1) (ix1 (Spec.row (Read.val_main_v36 (F := Ideal) x1) e)) * (Read.val_main_v15 (F := Ideal) x1) (ix1 (Spec.row (Read.val_main_v28 (F := Ideal) x1) e))) := by
  have hi : Read.idx_main_v38 (Read.idx_main_v39 (ix2 e c)) = ix1 e := funext fun a => Fin.ext (by match a with | ⟨0, _⟩ => rfl)
  rw [Read.val_main_v40_apply, Read.val_main_v39_apply, Read.val_main_v38_apply, hi, v30_read, v37_read, v7_read]
  rfl

/-- The weighted rows landing on node `n`, summed onto the zero word. -/
theorem v43_read (n : Fin 100000) (c : Fin 128) :
    Read.val_main_v43 (F := Ideal) x0 x1 x2 (ix2 n c) = Spec.aggR (Read.val_main_v42 (F := Ideal) x1) (Read.val_main_v36 (F := Ideal) x1) (Read.val_main_v28 (F := Ideal) x1) (Read.val_main_v15 (F := Ideal) x1) (Spec.mmf (Spec.rows x0) x2) n c := by
  unfold Read.val_main_v43
  rw [rowScatter_eq, scatterAdd_rows_apply, Read.val_main_v41_apply, Read.val_main_cst_8_apply, Ideal.ofBits_def,
    Ideal.ofBits_zero_f32]
  unfold Spec.aggR Spec.land
  exact congrArg (fun s => (0 : EReal) + s) (Finset.sum_congr rfl fun e _ => v40_read x0 x1 x2 e c)

/-- The hidden layer: the bias added, then the maximum with the zero word. -/
theorem v47_read (n : Fin 100000) (c : Fin 128) :
    Read.val_main_v47 (F := Ideal) x0 x1 x2 x3 (ix2 n c) = Spec.rH (Read.val_main_v42 (F := Ideal) x1) (Read.val_main_v36 (F := Ideal) x1) (Read.val_main_v28 (F := Ideal) x1) (Read.val_main_v15 (F := Ideal) x1) x0 x2 x3 n c := by
  have hi : Read.idx_main_v44 (Read.idx_main_v45 (ix2 n c)) = ix1 c := funext fun a => Fin.ext (by match a with | ⟨0, _⟩ => rfl)
  rw [Read.val_main_v47_apply, Read.val_main_v46_apply, Read.val_main_v45_apply, Read.val_main_v44_apply, hi,
    Read.val_main_call1_v0_apply, Read.val_main_call1_cst_apply, v43_read, Ideal.ofBits_def, Ideal.ofBits_zero_f32]
  rfl

/-! ## The second layer -/

/-- The second matrix product. -/
theorem v48_read (n : Fin 100000) (c : Fin 128) :
    Read.val_main_v48 (F := Ideal) x0 x1 x2 x3 x4 (ix2 n c) = Spec.mmf (Spec.rH (Read.val_main_v42 (F := Ideal) x1) (Read.val_main_v36 (F := Ideal) x1) (Read.val_main_v28 (F := Ideal) x1) (Read.val_main_v15 (F := Ideal) x1) x0 x2 x3) x4 n c := by
  rw [Read.val_main_v48_apply]
  show _ = ∑ k : Fin 128, Spec.rH (Read.val_main_v42 (F := Ideal) x1) (Read.val_main_v36 (F := Ideal) x1) (Read.val_main_v28 (F := Ideal) x1) (Read.val_main_v15 (F := Ideal) x1) x0 x2 x3 n k * x4 (ix2 k c)
  refine Finset.sum_congr rfl fun k _ => ?_
  have hl : Read.lidx_main_v48 (ix2 n c) k = ix2 n k := funext fun a => Fin.ext (by match a with | ⟨0, _⟩ => rfl | ⟨1, _⟩ => rfl)
  have hr : Read.ridx_main_v48 (ix2 n c) k = ix2 k c := funext fun a => Fin.ext (by match a with | ⟨0, _⟩ => rfl | ⟨1, _⟩ => rfl)
  rw [hl, hr, v47_read]

/-- The rows of the second product gathered along the wrapped source column. -/
theorem v78_read (e : Fin 1700000) (c : Fin 128) :
    Read.val_main_v78 (F := Ideal) x0 x1 x2 x3 x4 (ix2 e c)
      = Read.val_main_v48 (F := Ideal) x0 x1 x2 x3 x4 (ix2 (Spec.row (Read.val_main_v36 (F := Ideal) x1) e) c) := by
  unfold Read.val_main_v78
  rw [rowGather_eq, v77_eq]
  exact gather_rows_apply (by omega) _ (Read.val_main_v48 (F := Ideal) x0 x1 x2 x3 x4) (Read.val_main_v36 (F := Ideal) x1) e c

/-- The gathered row times the weight of its edge. -/
theorem v81_read (e : Fin 1700000) (c : Fin 128) :
    Read.val_main_v81 (F := Ideal) x0 x1 x2 x3 x4 (ix2 e c)
      = Spec.mmf (Spec.rH (Read.val_main_v42 (F := Ideal) x1) (Read.val_main_v36 (F := Ideal) x1) (Read.val_main_v28 (F := Ideal) x1) (Read.val_main_v15 (F := Ideal) x1) x0 x2 x3) x4 (Spec.row (Read.val_main_v36 (F := Ideal) x1) e) c * ((Read.val_main_v15 (F := Ideal) x1) (ix1 (Spec.row (Read.val_main_v36 (F := Ideal) x1) e)) * (Read.val_main_v15 (F := Ideal) x1) (ix1 (Spec.row (Read.val_main_v28 (F := Ideal) x1) e))) := by
  have hi : Read.idx_main_v79 (Read.idx_main_v80 (ix2 e c)) = ix1 e := funext fun a => Fin.ext (by match a with | ⟨0, _⟩ => rfl)
  rw [Read.val_main_v81_apply, Read.val_main_v80_apply, Read.val_main_v79_apply, hi, v71_read, v78_read, v48_read]
  rfl

/-- The weighted rows landing on node `n`, summed onto the zero word. -/
theorem v84_read (n : Fin 100000) (c : Fin 128) :
    Read.val_main_v84 (F := Ideal) x0 x1 x2 x3 x4 (ix2 n c)
      = Spec.aggR (Read.val_main_v42 (F := Ideal) x1) (Read.val_main_v36 (F := Ideal) x1) (Read.val_main_v28 (F := Ideal) x1) (Read.val_main_v15 (F := Ideal) x1) (Spec.mmf (Spec.rH (Read.val_main_v42 (F := Ideal) x1) (Read.val_main_v36 (F := Ideal) x1) (Read.val_main_v28 (F := Ideal) x1) (Read.val_main_v15 (F := Ideal) x1) x0 x2 x3) x4) n c := by
  unfold Read.val_main_v84
  rw [rowScatter_eq, v83_eq, scatterAdd_rows_apply, Read.val_main_v82_apply, Read.val_main_cst_19_apply, Ideal.ofBits_def,
    Ideal.ofBits_zero_f32]
  unfold Spec.aggR Spec.land
  exact congrArg (fun s => (0 : EReal) + s) (Finset.sum_congr rfl fun e _ => v81_read x0 x1 x2 x3 x4 e c)

/-- The second layer's result: the bias added. -/
theorem v87_read (n : Fin 100000) (c : Fin 128) :
    Read.val_main_v87 (F := Ideal) x0 x1 x2 x3 x4 x5 (ix2 n c) = Spec.rZ (Read.val_main_v42 (F := Ideal) x1) (Read.val_main_v36 (F := Ideal) x1) (Read.val_main_v28 (F := Ideal) x1) (Read.val_main_v15 (F := Ideal) x1) x0 x2 x3 x4 x5 n c := by
  have hi : Read.idx_main_v85 (Read.idx_main_v86 (ix2 n c)) = ix1 c := funext fun a => Fin.ext (by match a with | ⟨0, _⟩ => rfl)
  rw [Read.val_main_v87_apply, Read.val_main_v86_apply, Read.val_main_v85_apply, hi, v84_read]
  rfl

/-! ## The decoder -/

/-- The decoder's first matrix product. -/
theorem v88_read (r : Fin 100000) (k : Fin 128) :
    Read.val_main_v88 (F := Ideal) x0 x1 x2 x3 x4 x5 x6 (ix2 r k) = Spec.mmf (Spec.rZ (Read.val_main_v42 (F := Ideal) x1) (Read.val_main_v36 (F := Ideal) x1) (Read.val_main_v28 (F := Ideal) x1) (Read.val_main_v15 (F := Ideal) x1) x0 x2 x3 x4 x5) x6 r k := by
  rw [Read.val_main_v88_apply]
  show _ = ∑ j : Fin 128, Spec.rZ (Read.val_main_v42 (F := Ideal) x1) (Read.val_main_v36 (F := Ideal) x1) (Read.val_main_v28 (F := Ideal) x1) (Read.val_main_v15 (F := Ideal) x1) x0 x2 x3 x4 x5 r j * x6 (ix2 j k)
  refine Finset.sum_congr rfl fun j _ => ?_
  have hl : Read.lidx_main_v88 (ix2 r k) j = ix2 r j := funext fun a => Fin.ext (by match a with | ⟨0, _⟩ => rfl | ⟨1, _⟩ => rfl)
  have hr : Read.ridx_main_v88 (ix2 r k) j = ix2 j k := funext fun a => Fin.ext (by match a with | ⟨0, _⟩ => rfl | ⟨1, _⟩ => rfl)
  rw [hl, hr, v87_read]

/-- The decoder's hidden layer. -/
theorem v92_read (r : Fin 100000) (k : Fin 128) :
    Read.val_main_v92 (F := Ideal) x0 x1 x2 x3 x4 x5 x6 x7 (ix2 r k)
      = max (Spec.mmf (Spec.rZ (Read.val_main_v42 (F := Ideal) x1) (Read.val_main_v36 (F := Ideal) x1) (Read.val_main_v28 (F := Ideal) x1) (Read.val_main_v15 (F := Ideal) x1) x0 x2 x3 x4 x5) x6 r k + x7 (ix1 k)) 0 := by
  have hi : Read.idx_main_v89 (Read.idx_main_v90 (ix2 r k)) = ix1 k := funext fun a => Fin.ext (by match a with | ⟨0, _⟩ => rfl)
  rw [Read.val_main_v92_apply, Read.val_main_v91_apply, Read.val_main_v90_apply, Read.val_main_v89_apply, hi,
    Read.val_main_call3_v0_apply, Read.val_main_call3_cst_apply, v88_read, Ideal.ofBits_def, Ideal.ofBits_zero_f32]
  rfl

/-- THE REFERENCE IS THE EDGE-WEIGHT FORM: its result, index by index, is `refOut` of the graph stages and the arguments. -/
theorem ref_out :
    Read.val_main_v96 (F := Ideal) x0 x1 x2 x3 x4 x5 x6 x7 x8 x9
      = Spec.asArr (Spec.refOut (Read.val_main_v42 (F := Ideal) x1) (Read.val_main_v36 (F := Ideal) x1) (Read.val_main_v28 (F := Ideal) x1) (Read.val_main_v15 (F := Ideal) x1) x0 x2 x3 x4 x5 x6 x7 x8 x9) := by
  funext i
  obtain ⟨r, c, rfl⟩ : ∃ (r : Fin 100000) (c : Fin 6), i = ix2 r c := ⟨i 0, i 1, eq_ix2 i⟩
  have hi : Read.idx_main_v94 (Read.idx_main_v95 (ix2 r c)) = ix1 c := funext fun a => Fin.ext (by match a with | ⟨0, _⟩ => rfl)
  rw [Spec.asArr_ix2, Read.val_main_v96_apply, Read.val_main_v95_apply, Read.val_main_v94_apply, hi,
    Read.val_main_v93_apply]
  show (∑ k : Fin 128, _) + _
    = (∑ k : Fin 128, max (Spec.mmf (Spec.rZ (Read.val_main_v42 (F := Ideal) x1) (Read.val_main_v36 (F := Ideal) x1) (Read.val_main_v28 (F := Ideal) x1) (Read.val_main_v15 (F := Ideal) x1) x0 x2 x3 x4 x5) x6 r k + x7 (ix1 k)) 0 * x8 (ix2 k c)) + x9 (ix1 c)
  refine congrArg (fun s => s + x9 (ix1 c)) (Finset.sum_congr rfl fun k _ => ?_)
  have hl : Read.lidx_main_v93 (ix2 r c) k = ix2 r k := funext fun a => Fin.ext (by match a with | ⟨0, _⟩ => rfl | ⟨1, _⟩ => rfl)
  have hr : Read.ridx_main_v93 (ix2 r c) k = ix2 k c := funext fun a => Fin.ext (by match a with | ⟨0, _⟩ => rfl | ⟨1, _⟩ => rfl)
  rw [hl, hr, v92_read]

end Stages

end Cert.ReferenceIdeal.RefValue

end
-- ==== Proof.lean ====
/-
  A THREE-KERNEL GRAPH CONVOLUTION AGAINST ITS REFERENCE: the proof of the certificate's claim.

  The program. A graph on 100000 nodes with 1600000 edges and a self-loop at every node; node features `x : [100000, 6]`.
  With `deg n` the number of edges whose destination is `n` and `dinv n = deg n ^ (-1/2)` where the degree is positive
  (zero elsewhere), a graph convolution of a table `P` is
      (conv P) n = Σ_{e : dst e = n} P (src e) · (dinv (src e) · dinv (dst e)).
  The reference computes `h = max (conv (x · W1) + b1) 0`, `z = conv (h · W2) + b2` and the decoder
  `max (z · fc1_w + fc1_b) 0 · fc2_w + fc2_b`, every edge weighted by `dinv (src e) · dinv (dst e)`.
  The kernel program never forms the edge weights: a first kernel computes `(x · W1)` with row `r` scaled by `dinv r`;
  the host gathers and sums the scaled rows; a second kernel multiplies the sum at node `n` by `dinv n`, adds `b1`, takes
  the maximum with zero, multiplies by `W2` and scales the rows again; the host sums again; a third kernel multiplies by
  `dinv n`, adds `b2` and applies the decoder.

  Why they agree at the ideal instance. For an edge landing on `n` the destination is `n`, so the kernel's
  `dinv n · Σ_e (P (src e) · dinv (src e))` is the reference's sum with the factor `dinv n` moved inside: distributivity of
  the product over a finite sum. On the extended reals that law needs real-valued terms, which is where the
  precondition is used: finite `x`, `W1`, `b1`, `W2` make both layers' tables real, and `dinv` is real whatever the degree
  is (the reciprocal square root is only taken where the degree is positive, and is zero at +∞). The matrix products
  (a matrix-unit product into a zero accumulator on one side, a host contraction on the other), the changes of float
  format and the sums' orders are the same extended reals on both sides.

  How the proof is cut. `Spec`: the two formulas and their equality. `Region0/1/2`: each kernel region's output array as
  a function of the arrays it finds. `KernelRun`, `KernelFold`, `KernelValue`: the kernel program's run, its buffers at
  the segment boundaries, and its result as the scaled formula. `RunP`, `ReadP`, `RefFold`, `RefRead`: the reference's
  run, its stages, and its result as the edge-weight formula. `Finite`: real-valued arguments from the precondition.
  The three frames are the generated frame runs; the idealization rewrote nothing.
-/
import proofs.«137930_j50749333569689_2_alg».proof.Defs
import proofs.«137930_j50749333569689_2_alg».proof.Proof.Gen.Kernel
import proofs.«137930_j50749333569689_2_alg».proof.Proof.Gen.Kernel.Skeleton
import proofs.«137930_j50749333569689_2_alg».proof.Proof.Gen.Kernel.Launch
import proofs.«137930_j50749333569689_2_alg».proof.Proof.Gen.Kernel.Points
import proofs.«137930_j50749333569689_2_alg».proof.Proof.Gen.Kernel.Frame
import proofs.«137930_j50749333569689_2_alg».proof.Proof.Gen.KernelIdeal
import proofs.«137930_j50749333569689_2_alg».proof.Proof.Gen.KernelIdeal.Skeleton
import proofs.«137930_j50749333569689_2_alg».proof.Proof.Gen.KernelIdeal.Launch
import proofs.«137930_j50749333569689_2_alg».proof.Proof.Gen.KernelIdeal.Points
import proofs.«137930_j50749333569689_2_alg».proof.Proof.Gen.KernelIdeal.Frame
import proofs.«137930_j50749333569689_2_alg».proof.Proof.Gen.ReferenceIdeal
import proofs.«137930_j50749333569689_2_alg».proof.Proof.Gen.Pre_finite_inputs
import proofs.«137930_j50749333569689_2_alg».proof.Proof.RunP
import proofs.«137930_j50749333569689_2_alg».proof.Proof.ReadP
import proofs.«137930_j50749333569689_2_alg».proof.Proof.Spec
import proofs.«137930_j50749333569689_2_alg».proof.Proof.Finite
import proofs.«137930_j50749333569689_2_alg».proof.Proof.KernelRun
import proofs.«137930_j50749333569689_2_alg».proof.Proof.KernelValue
import proofs.«137930_j50749333569689_2_alg».proof.Proof.RefFold
import proofs.«137930_j50749333569689_2_alg».proof.Proof.RefRead
import Idealize.ShloMosaic.Adequacy
import Idealize.ShloMosaic.Init

noncomputable section

namespace Cert.Proof

open Idealize.ShloMosaic Idealize.ShloMosaic.TcCoe Idealize.SL.Sem

/-- The kernel program as printed runs and gives its arguments back. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and gives its arguments back: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, both programs end with the same result array: the
    kernel program's is the scaled formula of its arguments, the reference's the edge-weight formula of the same
    arguments, and the two formulas agree for real-valued features, first-layer weights and bias, second-layer weights
    (the precondition), the degree scale being real and an edge landing on a node having that node as destination row. -/
theorem algebraic : Cert.algebraic_KernelIdeal_ReferenceIdeal := by
  intro m ρ m' ρ' hpre hagree
  refine ⟨fun c => Cert.KernelIdeal.Gen.W8 m ρ c (Proc.devRef .tc Cert.KernelIdeal.main_v42),
    Cert.KernelIdeal.RunValue.run_out m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9⟩ := hagree c
  obtain ⟨hX, hW1, hb1, hW2⟩ := Cert.Finite.isR_of_pre _ _ _ _ _ _ _ _ _ _ (hpre c)
  rw [Cert.ReferenceIdeal.RefFold.fold_v96 m' c, h0, h1, h2, h3, h4, h5, h6, h7, h8, h9,
    Cert.ReferenceIdeal.RefValue.ref_out]
  refine Eq.trans (congrArg Cert.Spec.asArr ?_) (Cert.KernelIdeal.KValue.out_eq m ρ c).symm
  exact (Cert.Spec.kerOut_eq_refOut _ _ _ _ _ _ _ _ _ _ _ _ _ hX hW1 hb1 hW2
    (Cert.ReferenceIdeal.RefValue.ref_dinv_isR _) (fun n e he => Cert.ReferenceIdeal.RefValue.ref_land _ n e he)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
